-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x40 .f32) (main_arg9 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S1x40 : Shape := ⟨2, ![1, 40]⟩
abbrev S50000x256 : Shape := ⟨2, ![50000, 256]⟩
abbrev S2000x128 : Shape := ⟨2, ![2000, 128]⟩
abbrev S2000x256 : Shape := ⟨2, ![2000, 256]⟩
abbrev S50000x40 : Shape := ⟨2, ![50000, 40]⟩
abbrev S2000x40 : Shape := ⟨2, ![2000, 40]⟩

abbrev nBuf : Space → Nat
  | .hbm => 44
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x40, .f32⟩
  | .hbm, ⟨32, _⟩ => ⟨S50000x256, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x40, .f32⟩
  | .local _ .vmem, ⟨19, _⟩ => ⟨S1x40, .f32⟩
  | .local _ .vmem, ⟨20, _⟩ => ⟨S2000x40, .f32⟩
  | .local _ .vmem, ⟨21, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x40 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x40 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S256_S1x256 : S256.ShapeCasts S1x256
  shapeCasts_S40_S1x40 : S40.ShapeCasts S1x40
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x40.size a ≤ S256x40.size a
  hwx1_7 : ∀ i : grid1.Coords, EltTy.bits .f32 = 32 ∨ (Rect.block (s := S256x40) S256x40.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x40.size a ≤ S1x40.size a
  hwx1_8 : ∀ i : grid1.Coords, EltTy.bits .f32 = 32 ∨ (Rect.block (s := S1x40) S1x40.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x40.size a ≤ S50000x40.size a
  hwx1_9 : ∀ i : grid1.Coords, EltTy.bits .f32 = 32 ∨ (Rect.block (s := S50000x40) S2000x40.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x40.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S2000x40.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .i32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x40, .f32⟩
  | .hbm, ⟨87, _⟩ => ⟨S1x40, .f32⟩
  | .hbm, ⟨88, _⟩ => ⟨S50000x40, .f32⟩
  | .hbm, ⟨89, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_call1_cst : Ref sig .tc := ⟨.hbm, 76, rfl⟩
abbrev main_call1_v0 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call2_cst : Ref sig .tc := ⟨.hbm, 83, rfl⟩
abbrev main_call2_v0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KRun.lean ====
/-
  The idealized kernel's whole run with its result named.

  The program is four segments: the host operations before the first kernel, the first kernel's grid, the host operations
  between the two kernels, the second kernel's grid. Each segment takes the TensorCore's buffers from one valuation to the
  next, and after the last one every buffer that outlives a kernel holds the last valuation's contents. Read at the
  result buffer this names the program's result; read at the ten argument buffers it says they end as launched.
-/
import proofs.«181071_j42348377538854_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    valuation's contents for it, and the argument buffers end as launched. -/
theorem run_result : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KValue

end
-- ==== Proof.K0Cases.lean ====
/-
  What one grid point of the first kernel leaves in its three output buffers, as values.

  The body computes the block y = (x + agg) W1 + b1 of 2000 rows, stores it, and adds its column sums and the column
  sums of its squares into two running rows. At the first point the running rows are first set to zero and read back;
  at every later point they are read as the point before left them. Each buffer is written by stores that cover it,
  so what it holds afterwards is the last store's value: the block, and the two updated rows.
-/
import proofs.«181071_j42348377538854_1_alg».proof.Proof.Gen.KernelIdeal.Frame
import Idealize.ShloMosaic.Lib.Pipeline.Value
import Idealize.ShloMosaic.Lib.Tactic

set_option pp.maxSteps 8000
set_option pp.deepTerms false

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- A later point: the block buffer holds the block computed from the four input blocks. -/
theorem out_B4 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond0_0 i) (x0 : Vec F S2000x128 .f32) (x1 : Vec F S2000x128 .f32) (x2 : Vec F S128x256 .f32) (x3 : Vec F S1x256 .f32) (xo5 xo6 : Vec F S1x256 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

/-- A later point: the running row of sums holds what it held plus the block's column sums. -/
theorem out_B5 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond0_0 i) (x0 : Vec F S2000x128 .f32) (x1 : Vec F S2000x128 .f32) (x2 : Vec F S128x256 .f32) (x3 : Vec F S1x256 .f32) (xo5 xo6 : Vec F S1x256 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

/-- A later point: the running row of squares holds what it held plus the column sums of the block's squares. -/
theorem out_B6 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond0_0 i) (x0 : Vec F S2000x128 .f32) (x1 : Vec F S2000x128 .f32) (x2 : Vec F S128x256 .f32) (x3 : Vec F S1x256 .f32) (xo5 xo6 : Vec F S1x256 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

/-- The first point: the block buffer holds the block. -/
theorem out_A4 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond0_0 i) (x0 : Vec F S2000x128 .f32) (x1 : Vec F S2000x128 .f32) (x2 : Vec F S128x256 .f32) (x3 : Vec F S1x256 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

/-- The first point: the running row of sums was set to zero and read back, so it holds zero plus the column sums. -/
theorem out_A5 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond0_0 i) (x0 : Vec F S2000x128 .f32) (x1 : Vec F S2000x128 .f32) (x2 : Vec F S128x256 .f32) (x3 : Vec F S1x256 .f32) :
    out0_A_5 c i a1 h1 a2 h2 a3 h3 a4 h4 a5 h5 a6 h6 a7 h7 hc x0 x1 x2 x3 = k0_pay4 x0 x1 x2 x3 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

/-- The first point: likewise the running row of squares. -/
theorem out_A6 (c : Dev nD) (i : grid0.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond0_0 i) (x0 : Vec F S2000x128 .f32) (x1 : Vec F S2000x128 .f32) (x2 : Vec F S128x256 .f32) (x3 : Vec F S1x256 .f32) :
    out0_A_6 c i a1 h1 a2 h2 a3 h3 a4 h4 a5 h5 a6 h6 a7 h7 hc x0 x1 x2 x3 = k0_pay5 x0 x1 x2 x3 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h6.read_unread, h7.read_unread,
    View.ld_unit_zero (S := S2000x128) hz, View.ld_unit_zero (S := S128x256) hz, View.ld_unit_zero (S := S1x256) hz]

end Cert.KernelIdeal.KValue

end
-- ==== Proof.K0Fold.lean ====
/-
  The first kernel's output buffers after each grid point, in closed form.

  The block buffer holds the current point's block. The two running rows are folds over the points so far: at the
  first point zero plus that block's column sums (of the entries, of their squares), at each later point what the
  point before left plus the current block's column sums. This is shown by induction on the point.
-/
import proofs.«181071_j42348377538854_1_alg».proof.Proof.K0Cases

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (V : (c : Dev nD) → (b : Ref sig .tc) → Buf (Elt F) ((c : Thread nD τ).loc b))

/-- The block point t computes from its four input blocks. -/
def yblock (c : Dev nD) (t : Fin cfg0.N) : Vec F S2000x256 .f32 :=
  k0_pay3 (iblk0 V c 0 t) (iblk0 V c 1 t) (iblk0 V c 2 t) (iblk0 V c 3 t)

/-- The running row of column sums after point n. -/
def sumRow (c : Dev nD) : (n : ℕ) → n < cfg0.N → Vec F S1x256 .f32
  | 0, h => k0_pay4 (iblk0 V c 0 ⟨0, h⟩) (iblk0 V c 1 ⟨0, h⟩) (iblk0 V c 2 ⟨0, h⟩) (iblk0 V c 3 ⟨0, h⟩) (k0_pay1 (F := F))
  | n + 1, h => k0_pay4 (iblk0 V c 0 ⟨n + 1, h⟩) (iblk0 V c 1 ⟨n + 1, h⟩) (iblk0 V c 2 ⟨n + 1, h⟩) (iblk0 V c 3 ⟨n + 1, h⟩) (sumRow c n (Nat.lt_of_succ_lt h))

/-- The running row of column sums of squares after point n. -/
def sqRow (c : Dev nD) : (n : ℕ) → n < cfg0.N → Vec F S1x256 .f32
  | 0, h => k0_pay5 (iblk0 V c 0 ⟨0, h⟩) (iblk0 V c 1 ⟨0, h⟩) (iblk0 V c 2 ⟨0, h⟩) (iblk0 V c 3 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩) (sqRow c n (Nat.lt_of_succ_lt h))

theorem sumRow_zero (c : Dev nD) (h : 0 < cfg0.N) :
    sumRow V c 0 h = k0_pay4 (iblk0 V c 0 ⟨0, h⟩) (iblk0 V c 1 ⟨0, h⟩) (iblk0 V c 2 ⟨0, h⟩) (iblk0 V c 3 ⟨0, h⟩) (k0_pay1 (F := F)) := rfl
theorem sumRow_succ (c : Dev nD) (n : ℕ) (h : n + 1 < cfg0.N) :
    sumRow V c (n + 1) h = k0_pay4 (iblk0 V c 0 ⟨n + 1, h⟩) (iblk0 V c 1 ⟨n + 1, h⟩) (iblk0 V c 2 ⟨n + 1, h⟩) (iblk0 V c 3 ⟨n + 1, h⟩) (sumRow V c n (Nat.lt_of_succ_lt h)) := rfl
theorem sqRow_zero (c : Dev nD) (h : 0 < cfg0.N) :
    sqRow V c 0 h = k0_pay5 (iblk0 V c 0 ⟨0, h⟩) (iblk0 V c 1 ⟨0, h⟩) (iblk0 V c 2 ⟨0, h⟩) (iblk0 V c 3 ⟨0, h⟩) (k0_pay2 (F := F)) := rfl
theorem sqRow_succ (c : Dev nD) (n : ℕ) (h : n + 1 < cfg0.N) :
    sqRow V c (n + 1) h = k0_pay5 (iblk0 V c 0 ⟨n + 1, h⟩) (iblk0 V c 1 ⟨n + 1, h⟩) (iblk0 V c 2 ⟨n + 1, h⟩) (iblk0 V c 3 ⟨n + 1, h⟩) (sqRow V c n (Nat.lt_of_succ_lt h)) := rfl

/-- After point n the three output buffers hold the point's block and the two running rows. -/
theorem outsAt_eq (c : Dev nD) : ∀ (n : ℕ) (h : n < cfg0.N),
    outsAt0 V c n h = (yblock V c ⟨n, h⟩, sumRow V c n h, sqRow V c n h)
  | 0, h => by
    rw [outsAt0_A V c ⟨0, h⟩ rfl, out_A4, out_A5, out_A6]
    rfl
  | n + 1, h => by
    have hN : cfg0.N = 25 := N_0
    have hB : ¬(⟨n + 1, h⟩ : Fin cfg0.N).val % 25 = 0 := by dsimp only; omega
    rw [outsAt0_B V c ⟨n + 1, h⟩ hB, out_B4, out_B5, out_B6]
    show (_, k0_pay4 _ _ _ _ (outsAt0 V c n _).2.1, k0_pay5 _ _ _ _ (outsAt0 V c n _).2.2) = _
    rw [outsAt_eq c n]
    rfl

end Cert.KernelIdeal.KValue

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.K0Pay.lean ====
/-
  The first kernel's arithmetic at one entry, over the extended reals.

  For a block of 2000 rows, with x and agg the input blocks, W1 the weights and b1 the bias row:
    the stored block at (r, q) is    (sum over k of (x[r,k] + agg[r,k]) * W1[k,q]) + b1[0,q];
    the updated row of sums at q is  the row read + the sum over the 2000 rows r of the block at (r, q);
    the updated row of squares at q  the row read + the sum over r of the square of the block at (r, q).
  A matrix product into a zero accumulator is the plain sum over the contracted axis; a reduction over axis 0 from
  the zero is the sum over that axis; a cast between equal shapes is the identity; one row spread over many reads the row.
-/
import proofs.«181071_j42348377538854_1_alg».proof.Proof.Gen.KernelIdeal.Skeleton
import proofs.«181071_j42348377538854_1_alg».proof.Proof.LibPlainContract
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KValue

open Cert.KernelIdeal Cert.KernelIdeal.Gen

/-- A sum reduction over the rows of a [2000, 256] block from the zero, at column q: the sum over the rows. -/
theorem colsum_apply (src : FVec Ideal S2000x256 .f32) (h : S2000x256.Reduces [0] S256) (hφ : FKind.Formats .f32)
    (hacc : (0x00000000#32 : BitVec 32) = FKind.add.neutral .f32 hφ) (q : Fin 256) :
    multiReduction .add [0] S256 src 0x00000000#32 h hφ hacc (ix1 q) = ∑ r : Fin 2000, src (ix2 r q) := by
  refine (Ideal.multiReduction_add_single src 0x00000000#32 h hφ hacc (ix1 q)).trans ?_
  refine Finset.sum_congr rfl fun r _ => congrArg src ?_
  funext a
  refine Fin.ext ?_
  match a with
  | ⟨0, _⟩ => rfl
  | ⟨1, _⟩ => rfl

/-- The stored block at (r, q). -/
theorem pay3_apply (x0 x1 : Vec Ideal S2000x128 .f32) (x2 : Vec Ideal S128x256 .f32) (x3 : Vec Ideal S1x256 .f32)
    (r : Fin 2000) (q : Fin 256) :
    k0_pay3 x0 x1 x2 x3 (ix2 r q)
      = (∑ k : Fin 128, (x0 (ix2 r k) + x1 (ix2 r k)) * x2 (ix2 k q)) + x3 (ix2 (0 : Fin 1) q) := by
  unfold k0_pay3
  show _ + _ = _ + _
  refine congrArg₂ (· + ·) ?_ ?_
  · refine (Cert.LibPlainContract.matmul_plain_apply 2000 128 256 none _ _ r q).trans ?_
    refine Finset.sum_congr rfl fun k _ => ?_
    rw [shapeCast_self]
    rfl
  · refine (broadcastTo_1b_ab_apply _ _ r q).trans ?_
    rw [shapeCast_self]

/-- The updated row of sums at q. -/
theorem pay4_apply (x0 x1 : Vec Ideal S2000x128 .f32) (x2 : Vec Ideal S128x256 .f32) (x3 v14 : Vec Ideal S1x256 .f32)
    (u : Fin 1) (q : Fin 256) :
    k0_pay4 x0 x1 x2 x3 v14 (ix2 u q)
      = v14 (ix2 u q) + ∑ r : Fin 2000, k0_pay3 x0 x1 x2 x3 (ix2 r q) := by
  unfold k0_pay4
  dsimp only
  show _ + _ = _ + _
  refine congrArg₂ (· + ·) ?_ ?_
  · rw [shapeCast_self]
  · refine (shapeCast_a_1a_apply _ _ u q).trans ?_
    exact colsum_apply _ _ _ _ q

/-- The updated row of squares at q. -/
theorem pay5_apply (x0 x1 : Vec Ideal S2000x128 .f32) (x2 : Vec Ideal S128x256 .f32) (x3 v20 : Vec Ideal S1x256 .f32)
    (u : Fin 1) (q : Fin 256) :
    k0_pay5 x0 x1 x2 x3 v20 (ix2 u q)
      = v20 (ix2 u q)
        + ∑ r : Fin 2000, k0_pay3 x0 x1 x2 x3 (ix2 r q) * k0_pay3 x0 x1 x2 x3 (ix2 r q) := by
  unfold k0_pay5
  dsimp only
  show _ + _ = _ + _
  refine congrArg₂ (· + ·) ?_ ?_
  · rw [shapeCast_self]
  · refine (shapeCast_a_1a_apply _ _ u q).trans ?_
    refine (colsum_apply _ _ _ _ q).trans ?_
    rfl

/-- The rows the first point stores before reading them back are zero. -/
theorem pay1_apply (i : S1x256.Idx) : k0_pay1 (F := Ideal) i = 0 := by
  show Ideal.ofBits .f32 0x00000000#32 = 0
  exact Ideal.ofBits_zero_f32
theorem pay2_apply (i : S1x256.Idx) : k0_pay2 (F := Ideal) i = 0 := by
  show Ideal.ofBits .f32 0x00000000#32 = 0
  exact Ideal.ofBits_zero_f32

end Cert.KernelIdeal.KValue

end
-- ==== Proof.Spec.lean ====
/-
  The graph network layer both programs compute, as plain functions of the argument arrays read at explicit
  coordinates, over the extended reals.

  With h = x + agg (agg the neighbour sums), the first linear layer is
      Y[p, q] = (sum over k of h[p, k] * W1[k, q]) + b1[q]                       (p < 50000, q < 256).
  Batch normalisation takes, per column q, the mean  mu[q] = (sum over p of Y[p, q]) / N  and a variance; the two
  programs spell the variance differently — the mean of the squares minus the squared mean, against the mean of the
  squared deviations — and the rest of the network (scale and shift, clamp at zero, two more linear layers with a clamp
  between them) is one function `out` of Y, the mean and the variance. Nothing here mentions either program.
-/
import Idealize.ShloMosaic.PureOps.Ideal
import Idealize.ShloMosaic.Lib.ValueIdx

noncomputable section

namespace Cert.Gin

open Idealize.ShloMosaic Idealize.ShloMosaic.ValueIdx

/-- A matrix and a vector of extended reals, indexed as the programs' arrays are. -/
abbrev A2 (a b : Nat) := (⟨2, ![a, b]⟩ : Shape).Idx → EReal
abbrev A1 (a : Nat) := (⟨1, ![a]⟩ : Shape).Idx → EReal

/-- The number of nodes as both programs spell it (the float 50000.0), the variance's epsilon (the float nearest
    1e-5) and the float zero: kept as the patterns' values, the same word on both sides. -/
def nNodes : EReal := Ideal.ofBits .f32 0x47435000#32
def eps : EReal := Ideal.ofBits .f32 0x3727C5AC#32
def zero : EReal := Ideal.ofBits .f32 0x00000000#32

/-- The first linear layer at entry (p, q). -/
def lin1 (x agg : A2 50000 128) (W1 : A2 128 256) (b1 : A1 256) (p : Fin 50000) (q : Fin 256) : EReal :=
  (∑ k : Fin 128, (x (ix2 p k) + agg (ix2 p k)) * W1 (ix2 k q)) + b1 (ix1 q)

/-- Column q's mean over the nodes. -/
def mean (Y : Fin 50000 → Fin 256 → EReal) (q : Fin 256) : EReal :=
  Ideal.div (∑ p : Fin 50000, Y p q) nNodes

/-- The variance as the mean of the squares minus the squared mean. -/
def varSq (Y : Fin 50000 → Fin 256 → EReal) (q : Fin 256) : EReal :=
  Ideal.div (∑ p : Fin 50000, Y p q * Y p q) nNodes - mean Y q * mean Y q

/-- The variance as the mean of the squared deviations from the mean. -/
def varDev (Y : Fin 50000 → Fin 256 → EReal) (q : Fin 256) : EReal :=
  Ideal.div (∑ p : Fin 50000, (Y p q - mean Y q) * (Y p q - mean Y q)) nNodes

/-- Normalise, scale, shift and clamp at zero: entry (p, k) of the hidden layer. -/
def hidden (Y : Fin 50000 → Fin 256 → EReal) (mu var : Fin 256 → EReal) (γ β : A1 256) (p : Fin 50000) (k : Fin 256) :
    EReal :=
  max (((Y p k - mu k) * Ideal.rsqrt (var k + eps)) * γ (ix1 k) + β (ix1 k)) zero

/-- The second linear layer, clamped at zero. -/
def lin2 (H : Fin 50000 → Fin 256 → EReal) (W2 : A2 256 256) (b2 : A1 256) (p : Fin 50000) (j : Fin 256) : EReal :=
  max ((∑ k : Fin 256, H p k * W2 (ix2 k j)) + b2 (ix1 j)) zero

/-- The last linear layer. -/
def lin3 (H : Fin 50000 → Fin 256 → EReal) (Wl : A2 256 40) (bl : A1 40) (p : Fin 50000) (j : Fin 40) : EReal :=
  (∑ k : Fin 256, H p k * Wl (ix2 k j)) + bl (ix1 j)

/-- The network's result array, as a function of the first layer's output, the mean and the variance. -/
def out (Y : Fin 50000 → Fin 256 → EReal) (mu var : Fin 256 → EReal) (γ β : A1 256) (W2 : A2 256 256) (b2 : A1 256)
    (Wl : A2 256 40) (bl : A1 40) : A2 50000 40 :=
  fun i => lin3 (lin2 (hidden Y mu var γ β) W2 b2) Wl bl (i 0) (i 1)

theorem out_apply (Y : Fin 50000 → Fin 256 → EReal) (mu var : Fin 256 → EReal) (γ β : A1 256) (W2 : A2 256 256)
    (b2 : A1 256) (Wl : A2 256 40) (bl : A1 40) (p : Fin 50000) (j : Fin 40) :
    out Y mu var γ β W2 b2 Wl bl (ix2 p j) = lin3 (lin2 (hidden Y mu var γ β) W2 b2) Wl bl p j := rfl

end Cert.Gin

end
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.Algebra.lean ====
/-
  The arithmetic of the layer's batch normalisation over the extended reals.

  Everything here is about finite sums of real numbers seen inside the extended reals: the two spellings of a column's
  variance agree as soon as every entry is a real number, the first linear layer and the neighbour sums keep real
  entries real, and a sum over 50000 rows may be taken 2000 rows at a time.
-/
import proofs.«181071_j42348377538854_1_alg».proof.Proof.Spec
import proofs.«181071_j42348377538854_1_alg».proof.Proof.LibSoftmaxUnit
import proofs.«181071_j42348377538854_1_alg».proof.Proof.LibGroupedSum
import proofs.«181071_j42348377538854_1_alg».proof.Proof.LibGatherRows
import proofs.«181071_j42348377538854_1_alg».proof.Proof.LibScatterRows2

noncomputable section

namespace Cert.Gin

open Idealize.ShloMosaic Idealize.ShloMosaic.ValueIdx
open Idealize.ShloMosaic.SoftmaxUnit (IsReal coe_sum div_coe_coe)

/-- The pattern 0x47435000 is sign 0, exponent 142, fraction 0x435000: 2^15 * (1 + 4411392 / 2^23) = 50000. -/
theorem nNodes_eq : nNodes = ((50000 : ℝ) : EReal) := by
  unfold nNodes
  simp [Ideal.ofBits, Ideal.ieee, -EReal.coe_mul]; norm_num

/-- The real identity behind the two variances: for n reals g with n = N ≠ 0 and S their sum,
    (Σ g²)/N − (S/N)² = (Σ (g − S/N)²)/N. Expanding the square, Σ (g − m)² = Σ g² − 2 m S + n m², and with m = S/N the
    last two terms collapse to −S²/N. -/
theorem real_var_identity {ι : Type*} [Fintype ι] (g : ι → ℝ) (N : ℝ) (hN : N ≠ 0)
    (hcard : (Fintype.card ι : ℝ) = N) :
    (∑ p, g p * g p) / N - (∑ p, g p) / N * ((∑ p, g p) / N)
      = (∑ p, (g p - (∑ p, g p) / N) * (g p - (∑ p, g p) / N)) / N := by
  set S : ℝ := ∑ p, g p with hS
  set m : ℝ := S / N with hm
  have expand : ∑ p, (g p - m) * (g p - m) = (∑ p, g p * g p) - 2 * m * S + N * (m * m) := by
    have h1 : ∀ p, (g p - m) * (g p - m) = g p * g p - 2 * m * g p + m * m := fun p => by ring
    rw [Finset.sum_congr rfl fun p _ => h1 p, Finset.sum_add_distrib, Finset.sum_sub_distrib, ← Finset.mul_sum,
      Finset.sum_const, Finset.card_univ, nsmul_eq_mul, hcard]
  rw [expand, hm]
  field_simp
  ring

/-- THE TWO VARIANCES AGREE on a matrix of real numbers: the mean of the squares minus the squared mean is the mean of
    the squared deviations. (With an infinite entry the left side is ⊤ − ⊤ and the identity fails, so the hypothesis is
    used.) -/
theorem varSq_eq_varDev (Y : Fin 50000 → Fin 256 → EReal) (hY : ∀ p q, IsReal (Y p q)) : varSq Y = varDev Y := by
  choose f hf using hY
  funext q
  have hN : (50000 : ℝ) ≠ 0 := by norm_num
  have hm : mean Y q = (((∑ p, f p q) / 50000 : ℝ) : EReal) := by
    unfold mean
    rw [nNodes_eq, Finset.sum_congr rfl fun p _ => hf p q, coe_sum, div_coe_coe _ _ hN]
  have e1 : ∑ p, Y p q * Y p q = ((∑ p, f p q * f p q : ℝ) : EReal) := by
    rw [← coe_sum]
    exact Finset.sum_congr rfl fun p _ => by rw [hf p q, EReal.coe_mul]
  have e2 : ∑ p, (Y p q - mean Y q) * (Y p q - mean Y q)
      = ((∑ p, (f p q - (∑ p, f p q) / 50000) * (f p q - (∑ p, f p q) / 50000) : ℝ) : EReal) := by
    rw [← coe_sum]
    exact Finset.sum_congr rfl fun p _ => by rw [hm, hf p q, ← EReal.coe_sub, ← EReal.coe_mul]
  unfold varSq varDev
  rw [e1, e2, hm, nNodes_eq, div_coe_coe _ _ hN, div_coe_coe _ _ hN, ← EReal.coe_mul, ← EReal.coe_sub]
  exact congrArg _ (real_var_identity (fun p => f p q) 50000 hN (by rw [Fintype.card_fin]; norm_num))

/-- The first linear layer of real arrays has real entries: finite sums and products of reals. -/
theorem lin1_real (x agg : A2 50000 128) (W1 : A2 128 256) (b1 : A1 256) (hx : ∀ i, IsReal (x i))
    (ha : ∀ i, IsReal (agg i)) (hW : ∀ i, IsReal (W1 i)) (hb : ∀ i, IsReal (b1 i)) :
    ∀ p q, IsReal (lin1 x agg W1 b1 p q) := fun p q =>
  IsReal.add (IsReal.sum _ _ fun k => IsReal.mul (IsReal.add (hx _) (ha _)) (hW _)) (hb _)

/-- The neighbour sums of a real array, added into a real array, are real: entry (m, c) is the operand's entry plus a
    finite sum whose terms are entries of the gathered array — themselves entries of x — or zero. -/
theorem scatter_gather_real
    (wfs : ScatterDims.WF ⟨2, ![50000, 128]⟩ ⟨2, ![600000, 1]⟩ ⟨2, ![600000, 128]⟩ [1] [0] [0] 1)
    (wfg : GatherDims.WF ⟨2, ![50000, 128]⟩ ⟨2, ![600000, 1]⟩ ⟨2, ![600000, 128]⟩ [1] [0] [] [0] [] 1 ![1, 128])
    (x z : FVec Ideal ⟨2, ![50000, 128]⟩ .f32) (hx : ∀ i, IsReal (x i)) (hz : ∀ i, IsReal (z i))
    (i1 i2 : IVec ⟨2, ![600000, 1]⟩ 32) :
    ∀ i, IsReal (Host.scatterAdd (F := Ideal) (Cert.Lib.ScatterRows2.rowsDims 50000 600000 128 wfs) z i2
                   (Host.gather (Cert.LibGatherRows.rowsDims 50000 128 600000 wfg) x i1) i) := by
  intro i
  obtain ⟨m, c, rfl⟩ : ∃ (m : Fin 50000) (c : Fin 128), i = ix2 m c := ⟨i 0, i 1, eq_ix2 i⟩
  rw [Cert.Lib.ScatterRows2.scatterAdd_rows_apply]
  refine IsReal.add (hz _) (IsReal.sum _ _ fun t => ?_)
  split_ifs
  · rw [Cert.LibGatherRows.gather_rows_apply (by norm_num : 0 < 50000)]
    exact hx _
  · exact IsReal.zero

/-- A sum over the 50000 rows, taken as 25 consecutive blocks of 2000 rows: row 2000 g + k is the k-th of block g. -/
theorem sum_rows_blocks {M : Type*} [AddCommMonoid M] (f : ℕ → M) :
    ∑ g ∈ Finset.range 25, ∑ k : Fin 2000, f (2000 * g + k.val) = ∑ p : Fin 50000, f p.val := by
  rw [← Cert.LibGroupedSum.sum_range_mul_groups 2000 f 25]
  exact Finset.sum_range f

end Cert.Gin

end
-- ==== Proof.K0Final.lean ====
/-
  What the first kernel's three result arrays hold after its grid, as functions of the arrays it is entered with.

  Point t reads rows 2000t … 2000t + 1999 of x and of the neighbour sums (its blocks sit at block index (t, 0)), and the
  whole weight matrix and bias row (block index (0, 0)). So its block, at (r, q), is the first linear layer at row
  2000t + r: Y[2000t + r, q]. The block array is written back at every point, block t at rows 2000t …, and these 25 blocks
  cover it: it ends holding Y. The two running rows are written back once, after the last point; by induction on the
  point they hold the sums over the points so far of each block's column sums, which over all 25 points is the sum over
  all 50000 rows (a sum over consecutive positions grouped in 25 groups of 2000).
-/
import proofs.«181071_j42348377538854_1_alg».proof.Proof.K0Fold
import proofs.«181071_j42348377538854_1_alg».proof.Proof.K0Pay
import proofs.«181071_j42348377538854_1_alg».proof.Proof.Algebra

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (V : (c : Dev nD) → (b : Ref sig .tc) → Buf (Elt Ideal) ((c : Thread nD τ).loc b))

/-- The block indices of the seven windows at point t: the row blocks move with the point, the rest stay at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row r of point t's block is row 2000t + r of the array. -/
def rowOf (t : Fin cfg0.N) (r : Fin 2000) : Fin 50000 :=
  ⟨2000 * t.val + r.val, by have hN : cfg0.N = 25 := N_0; have := t.isLt; have := r.isLt; omega⟩

/-- The four arrays the first kernel reads, as matrices of extended reals. -/
abbrev aX (c : Dev nD) : Cert.Gin.A2 50000 128 := V c main_arg0
abbrev aAgg (c : Dev nD) : Cert.Gin.A2 50000 128 := V c main_v13
abbrev aW1 (c : Dev nD) : Cert.Gin.A2 128 256 := V c main_arg2
abbrev aB1 (c : Dev nD) : Cert.Gin.A2 1 256 := V c main_v14

/-- The first linear layer at (p, q), over the arrays as the first kernel finds them. -/
def Yv (c : Dev nD) (p : Fin 50000) (q : Fin 256) : EReal :=
  (∑ k : Fin 128, (aX V c (ix2 p k) + aAgg V c (ix2 p k)) * aW1 V c (ix2 k q)) + aB1 V c (ix2 (0 : Fin 1) q)

/-! ## The input blocks read at an entry -/

theorem blk_x (c : Dev nD) (t : Fin cfg0.N) (r : Fin 2000) (k : Fin 128) :
    (iblk0 V c 0 t : Vec Ideal S2000x128 .f32) (ix2 r k) = V c main_arg0 (ix2 (rowOf t r) k) := by
  obtain ⟨e0, e1, -⟩ := idx0 t
  unfold iblk0
  rw [View.read_apply]
  show V c main_arg0 _ = V c main_arg0 _
  refine congrArg (V c main_arg0) ?_
  funext a; refine Fin.ext ?_
  match a with
  | ⟨0, _⟩ => show win0_0.index t (0 : Fin 2) * 2000 + 1 * r.val = 2000 * t.val + r.val; omega
  | ⟨1, _⟩ => show win0_0.index t (1 : Fin 2) * 128 + 1 * k.val = k.val; omega

theorem blk_agg (c : Dev nD) (t : Fin cfg0.N) (r : Fin 2000) (k : Fin 128) :
    (iblk0 V c 1 t : Vec Ideal S2000x128 .f32) (ix2 r k) = V c main_v13 (ix2 (rowOf t r) k) := by
  obtain ⟨-, -, e0, e1, -⟩ := idx0 t
  unfold iblk0
  rw [View.read_apply]
  show V c main_v13 _ = V c main_v13 _
  refine congrArg (V c main_v13) ?_
  funext a; refine Fin.ext ?_
  match a with
  | ⟨0, _⟩ => show win0_1.index t (0 : Fin 2) * 2000 + 1 * r.val = 2000 * t.val + r.val; omega
  | ⟨1, _⟩ => show win0_1.index t (1 : Fin 2) * 128 + 1 * k.val = k.val; omega

theorem blk_W1 (c : Dev nD) (t : Fin cfg0.N) (k : Fin 128) (q : Fin 256) :
    (iblk0 V c 2 t : Vec Ideal S128x256 .f32) (ix2 k q) = V c main_arg2 (ix2 k q) := by
  obtain ⟨-, -, -, -, e0, e1, -⟩ := idx0 t
  unfold iblk0
  rw [View.read_apply]
  show V c main_arg2 _ = V c main_arg2 _
  refine congrArg (V c main_arg2) ?_
  funext a; refine Fin.ext ?_
  match a with
  | ⟨0, _⟩ => show win0_2.index t (0 : Fin 2) * 128 + 1 * k.val = k.val; omega
  | ⟨1, _⟩ => show win0_2.index t (1 : Fin 2) * 256 + 1 * q.val = q.val; omega

theorem blk_b1 (c : Dev nD) (t : Fin cfg0.N) (u : Fin 1) (q : Fin 256) :
    (iblk0 V c 3 t : Vec Ideal S1x256 .f32) (ix2 u q) = V c main_v14 (ix2 (0 : Fin 1) q) := by
  obtain ⟨-, -, -, -, -, -, e0, e1, -⟩ := idx0 t
  unfold iblk0
  rw [View.read_apply]
  show V c main_v14 _ = V c main_v14 _
  refine congrArg (V c main_v14) ?_
  funext a; refine Fin.ext ?_
  have hu : u.val = 0 := by omega
  match a with
  | ⟨0, _⟩ => show win0_3.index t (0 : Fin 2) * 1 + 1 * u.val = 0; omega
  | ⟨1, _⟩ => show win0_3.index t (1 : Fin 2) * 256 + 1 * q.val = q.val; omega

/-- Point t's block at (r, q) is the first linear layer at row 2000t + r. -/
theorem yblock_apply (c : Dev nD) (t : Fin cfg0.N) (r : Fin 2000) (q : Fin 256) :
    yblock V c t (ix2 r q) = Yv V c (rowOf t r) q := by
  unfold yblock Yv
  refine (pay3_apply (iblk0 V c 0 t) (iblk0 V c 1 t) (iblk0 V c 2 t) (iblk0 V c 3 t) r q).trans ?_
  refine congrArg₂ (· + ·) (Finset.sum_congr rfl fun k _ => ?_) (blk_b1 V c t 0 q)
  rw [blk_x, blk_agg, blk_W1]

/-! ## The block array -/

/-- What the block array ends holding. -/
def G4 (c : Dev nD) : S50000x256.Idx → EReal := fun i => Yv V c (i 0) (i 1)

theorem flushed4 (c : Dev nD) (t : Fin cfg0.N) :
    (dat0 V c).flushed 4 t = ((cfg0.win 4).blk t).view.read (Elt Ideal) (G4 V c) := by
  obtain ⟨-, -, -, -, -, -, -, -, e0, e1, -⟩ := idx0 t
  show (cfg0.win 4).cut (grid0.coords t) ((dat0 V c).after 4 t) = _
  rw [after0_4, outsAt_eq]
  funext j
  rw [View.read_apply]
  show yblock V c t j = G4 V c (((cfg0.win 4).blk t).view.emb j)
  refine (congrArg (yblock V c t) (eq_ix2 (n0 := 2000) (n1 := 256) j)).trans ?_
  refine (yblock_apply V c t (j 0) (j 1)).trans ?_
  unfold G4
  refine congrArg₂ (Yv V c) (Fin.ext ?_) (Fin.ext ?_)
  · show 2000 * t.val + (j 0).val = win0_4.index t (0 : Fin 2) * 2000 + 1 * (j 0).val; omega
  · show (j 1).val = win0_4.index t (1 : Fin 2) * 256 + 1 * (j 1).val; omega

theorem mem_blk4 (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v19_0).slice (win0_4.rect t)).set ↔ _
  rw [View.set_slice_whole, Rect.mem_set_unit]
  exact Iff.rfl

theorem cover4 (i : S50000x256.Idx) :
    ∃ t : Fin cfg0.N, (cfg0.win 4).flush t = true ∧ i ∈ ((cfg0.win 4).blk t).view.set := by
  have hN : cfg0.N = 25 := N_0
  have hi0 : (i 0).val < 50000 := (i 0).isLt
  have hi1 : (i 1).val < 256 := (i 1).isLt
  refine ⟨⟨(i 0).val / 2000, by omega⟩, flush0_4 _, ?_⟩
  obtain ⟨-, -, -, -, -, -, -, -, e0, e1, -⟩ := idx0 ⟨(i 0).val / 2000, by omega⟩
  rw [mem_blk4]
  intro a
  match a with
  | ⟨0, _⟩ =>
    show win0_4.index ⟨(i 0).val / 2000, _⟩ (0 : Fin 2) * 2000 ≤ (i 0).val
      ∧ (i 0).val < win0_4.index ⟨(i 0).val / 2000, _⟩ (0 : Fin 2) * 2000 + 2000
    rw [e0]; dsimp only; omega
  | ⟨1, _⟩ =>
    show win0_4.index ⟨(i 0).val / 2000, _⟩ (1 : Fin 2) * 256 ≤ (i 1).val
      ∧ (i 1).val < win0_4.index ⟨(i 0).val / 2000, _⟩ (1 : Fin 2) * 256 + 256
    rw [e1]; omega

/-- The block array ends holding the first linear layer. -/
theorem final4 (c : Dev nD) : (dat0 V c).arrAt 4 cfg0.N = G4 V c :=
  (dat0 V c).arrAt_eq_of_cover 4 (G4 V c) (fun t _ => flushed4 V c t) cover4

/-! ## The two running rows -/

/-- The first linear layer at a position counted in natural numbers (zero past the last row). -/
def Yn (c : Dev nD) (p : ℕ) (q : Fin 256) : EReal := if hp : p < 50000 then Yv V c ⟨p, hp⟩ q else 0

theorem yblock_Yn (c : Dev nD) (t : Fin cfg0.N) (r : Fin 2000) (q : Fin 256) :
    yblock V c t (ix2 r q) = Yn V c (2000 * t.val + r.val) q := by
  rw [yblock_apply]
  unfold Yn
  rw [dif_pos (show 2000 * t.val + r.val < 50000 from (rowOf t r).isLt)]
  rfl

theorem sumRow_apply (c : Dev nD) (u : Fin 1) (q : Fin 256) : ∀ (n : ℕ) (h : n < cfg0.N),
    sumRow V c n h (ix2 u q) = ∑ s ∈ Finset.range (n + 1), ∑ r : Fin 2000, Yn V c (2000 * s + r.val) q
  | 0, h => by
    rw [sumRow_zero]
    refine (pay4_apply (iblk0 V c 0 ⟨0, h⟩) (iblk0 V c 1 ⟨0, h⟩) (iblk0 V c 2 ⟨0, h⟩) (iblk0 V c 3 ⟨0, h⟩) (k0_pay1 (F := Ideal)) u q).trans ?_
    rw [pay1_apply, zero_add, Finset.sum_range_one]
    exact Finset.sum_congr rfl fun r _ => yblock_Yn V c ⟨0, h⟩ r q
  | n + 1, h => by
    rw [sumRow_succ]
    refine (pay4_apply (iblk0 V c 0 ⟨n + 1, h⟩) (iblk0 V c 1 ⟨n + 1, h⟩) (iblk0 V c 2 ⟨n + 1, h⟩) (iblk0 V c 3 ⟨n + 1, h⟩) (sumRow V c n (Nat.lt_of_succ_lt h)) u q).trans ?_
    rw [sumRow_apply c u q n, Finset.sum_range_succ _ (n + 1)]
    exact congrArg (_ + ·) (Finset.sum_congr rfl fun r _ => yblock_Yn V c ⟨n + 1, h⟩ r q)

theorem sqRow_apply (c : Dev nD) (u : Fin 1) (q : Fin 256) : ∀ (n : ℕ) (h : n < cfg0.N),
    sqRow V c n h (ix2 u q)
      = ∑ s ∈ Finset.range (n + 1), ∑ r : Fin 2000, Yn V c (2000 * s + r.val) q * Yn V c (2000 * s + r.val) q
  | 0, h => by
    rw [sqRow_zero]
    refine (pay5_apply (iblk0 V c 0 ⟨0, h⟩) (iblk0 V c 1 ⟨0, h⟩) (iblk0 V c 2 ⟨0, h⟩) (iblk0 V c 3 ⟨0, h⟩) (k0_pay2 (F := Ideal)) u q).trans ?_
    rw [pay2_apply, zero_add, Finset.sum_range_one]
    exact Finset.sum_congr rfl fun r _ => by
      rw [show k0_pay3 (iblk0 V c 0 ⟨0, h⟩) (iblk0 V c 1 ⟨0, h⟩) (iblk0 V c 2 ⟨0, h⟩) (iblk0 V c 3 ⟨0, h⟩) = yblock V c ⟨0, h⟩ from rfl, yblock_Yn]
  | n + 1, h => by
    rw [sqRow_succ]
    refine (pay5_apply (iblk0 V c 0 ⟨n + 1, h⟩) (iblk0 V c 1 ⟨n + 1, h⟩) (iblk0 V c 2 ⟨n + 1, h⟩) (iblk0 V c 3 ⟨n + 1, h⟩) (sqRow V c n (Nat.lt_of_succ_lt h)) u q).trans ?_
    rw [sqRow_apply c u q n, Finset.sum_range_succ _ (n + 1)]
    exact congrArg (_ + ·) (Finset.sum_congr rfl fun r _ => by
      rw [show k0_pay3 (iblk0 V c 0 ⟨n + 1, h⟩) (iblk0 V c 1 ⟨n + 1, h⟩) (iblk0 V c 2 ⟨n + 1, h⟩) (iblk0 V c 3 ⟨n + 1, h⟩) = yblock V c ⟨n + 1, h⟩ from rfl, yblock_Yn])

/-- A column total over all 50000 rows, kept folded: nothing ever needs to enumerate the rows. -/
@[irreducible] def total (f : Fin 50000 → EReal) : EReal := ∑ p : Fin 50000, f p
theorem total_eq (f : Fin 50000 → EReal) : total f = ∑ p : Fin 50000, f p := by unfold total; rfl

/-- Over all 25 points the grouped sums are the sum over all 50000 rows. -/
theorem sum_all_lin (c : Dev nD) (q : Fin 256) :
    ∑ s ∈ Finset.range 25, ∑ r : Fin 2000, Yn V c (2000 * s + r.val) q = total (fun p => Yv V c p q) := by
  rw [total_eq, Cert.Gin.sum_rows_blocks (fun p => Yn V c p q)]
  refine Finset.sum_congr rfl fun p _ => ?_
  unfold Yn
  rw [dif_pos p.isLt]
theorem sum_all_sq (c : Dev nD) (q : Fin 256) :
    ∑ s ∈ Finset.range 25, ∑ r : Fin 2000, Yn V c (2000 * s + r.val) q * Yn V c (2000 * s + r.val) q
      = total (fun p => Yv V c p q * Yv V c p q) := by
  rw [total_eq, Cert.Gin.sum_rows_blocks (fun p => Yn V c p q * Yn V c p q)]
  refine Finset.sum_congr rfl fun p _ => ?_
  unfold Yn
  rw [dif_pos p.isLt]

/-- What the two running rows end holding. -/
def G5 (c : Dev nD) : S1x256.Idx → EReal := fun i => total (fun p => Yv V c p (i 1))
def G6 (c : Dev nD) : S1x256.Idx → EReal := fun i => total (fun p => Yv V c p (i 1) * Yv V c p (i 1))

theorem G5_apply (c : Dev nD) (u : Fin 1) (q : Fin 256) : G5 V c (ix2 u q) = ∑ p : Fin 50000, Yv V c p q := by
  unfold G5; exact total_eq _
theorem G6_apply (c : Dev nD) (u : Fin 1) (q : Fin 256) :
    G6 V c (ix2 u q) = ∑ p : Fin 50000, Yv V c p q * Yv V c p q := by
  unfold G6; exact total_eq _

theorem last_point (t : Fin cfg0.N) (h : t.val % 25 = 24) : t.val = 24 := by
  have hN : cfg0.N = 25 := N_0; have := t.isLt; omega

theorem flushed5 (c : Dev nD) (t : Fin cfg0.N) (hf : (cfg0.win 5).flush t = true) :
    (dat0 V c).flushed 5 t = ((cfg0.win 5).blk t).view.read (Elt Ideal) (G5 V c) := by
  have ht : t.val = 24 := last_point t ((flush0_5 t).mp hf)
  obtain ⟨-, -, -, -, -, -, -, -, -, -, e0, e1, -⟩ := idx0 t
  show (cfg0.win 5).cut (grid0.coords t) ((dat0 V c).after 5 t) = _
  rw [after0_5, outsAt_eq]
  funext j
  rw [View.read_apply]
  show sumRow V c t.val t.isLt j = G5 V c (((cfg0.win 5).blk t).view.emb j)
  have e : (((cfg0.win 5).blk t).view.emb j) 1 = j 1 := Fin.ext (by
    show win0_5.index t (1 : Fin 2) * 256 + 1 * (j 1).val = (j 1).val; omega)
  unfold G5
  rw [e]
  refine (congrArg (sumRow V c t.val t.isLt) (eq_ix2 (n0 := 1) (n1 := 256) j)).trans ?_
  refine (sumRow_apply V c (j 0) (j 1) t.val t.isLt).trans ?_
  rw [ht]
  exact sum_all_lin V c (j 1)

theorem flushed6 (c : Dev nD) (t : Fin cfg0.N) (hf : (cfg0.win 6).flush t = true) :
    (dat0 V c).flushed 6 t = ((cfg0.win 6).blk t).view.read (Elt Ideal) (G6 V c) := by
  have ht : t.val = 24 := last_point t ((flush0_6 t).mp hf)
  obtain ⟨-, -, -, -, -, -, -, -, -, -, -, -, e0, e1⟩ := idx0 t
  show (cfg0.win 6).cut (grid0.coords t) ((dat0 V c).after 6 t) = _
  rw [after0_6, outsAt_eq]
  funext j
  rw [View.read_apply]
  show sqRow V c t.val t.isLt j = G6 V c (((cfg0.win 6).blk t).view.emb j)
  have e : (((cfg0.win 6).blk t).view.emb j) 1 = j 1 := Fin.ext (by
    show win0_6.index t (1 : Fin 2) * 256 + 1 * (j 1).val = (j 1).val; omega)
  unfold G6
  rw [e]
  refine (congrArg (sqRow V c t.val t.isLt) (eq_ix2 (n0 := 1) (n1 := 256) j)).trans ?_
  refine (sqRow_apply V c (j 0) (j 1) t.val t.isLt).trans ?_
  rw [ht]
  exact sum_all_sq V c (j 1)

theorem mem_blk5 (t : Fin cfg0.N) (i : S1x256.Idx) :
    i ∈ ((cfg0.win 5).blk t).view.set ↔ ∀ a : Fin 2, win0_5.index t a * S1x256.size a ≤ (i a).val
      ∧ (i a).val < win0_5.index t a * S1x256.size a + S1x256.size a := by
  show i ∈ ((View.whole main_v19_1).slice (win0_5.rect t)).set ↔ _
  rw [View.set_slice_whole, Rect.mem_set_unit]
  exact Iff.rfl

theorem mem_blk6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v19_2).slice (win0_6.rect t)).set ↔ _
  rw [View.set_slice_whole, Rect.mem_set_unit]
  exact Iff.rfl

/-- The last point, whose write-back covers the whole row. -/
def tLast : Fin cfg0.N := ⟨24, by rw [show cfg0.N = 25 from N_0]; decide⟩

theorem cover5 (i : S1x256.Idx) :
    ∃ t : Fin cfg0.N, (cfg0.win 5).flush t = true ∧ i ∈ ((cfg0.win 5).blk t).view.set := by
  have hi0 : (i 0).val < 1 := (i 0).isLt
  have hi1 : (i 1).val < 256 := (i 1).isLt
  obtain ⟨-, -, -, -, -, -, -, -, -, -, e0, e1, -⟩ := idx0 tLast
  refine ⟨tLast, (flush0_5 tLast).mpr rfl, ?_⟩
  rw [mem_blk5]
  intro a
  match a with
  | ⟨0, _⟩ =>
    show win0_5.index tLast (0 : Fin 2) * 1 ≤ (i 0).val ∧ (i 0).val < win0_5.index tLast (0 : Fin 2) * 1 + 1
    rw [e0]; omega
  | ⟨1, _⟩ =>
    show win0_5.index tLast (1 : Fin 2) * 256 ≤ (i 1).val ∧ (i 1).val < win0_5.index tLast (1 : Fin 2) * 256 + 256
    rw [e1]; omega

theorem cover6 (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  obtain ⟨-, -, -, -, -, -, -, -, -, -, -, -, e0, e1⟩ := idx0 tLast
  refine ⟨tLast, (flush0_6 tLast).mpr rfl, ?_⟩
  rw [mem_blk6]
  intro a
  match a with
  | ⟨0, _⟩ =>
    show win0_6.index tLast (0 : Fin 2) * 1 ≤ (i 0).val ∧ (i 0).val < win0_6.index tLast (0 : Fin 2) * 1 + 1
    rw [e0]; omega
  | ⟨1, _⟩ =>
    show win0_6.index tLast (1 : Fin 2) * 256 ≤ (i 1).val ∧ (i 1).val < win0_6.index tLast (1 : Fin 2) * 256 + 256
    rw [e1]; omega

/-- The row of sums ends holding each column's sum over all rows; the row of squares, the sum of the squares. -/
theorem final5 (c : Dev nD) : (dat0 V c).arrAt 5 cfg0.N = G5 V c :=
  (dat0 V c).arrAt_eq_of_cover 5 (G5 V c) (flushed5 V c) cover5
theorem final6 (c : Dev nD) : (dat0 V c).arrAt 6 cfg0.N = G6 V c :=
  (dat0 V c).arrAt_eq_of_cover 6 (G6 V c) (flushed6 V c) cover6

end Cert.KernelIdeal.KValue

end
-- ==== Proof.K1Pay.lean ====
/-
  The second kernel's arithmetic at one entry of a block.

  On a block of 2000 rows the kernel normalises each entry of the first layer's output with the column's mean and
  variance (subtract the mean, multiply by the reciprocal square root of the variance plus epsilon), scales and shifts it,
  clamps at zero, multiplies by the second weight matrix, adds the second bias, clamps at zero again, multiplies by the
  last weight matrix and adds the last bias. Read at row r and column j of the block, over the extended reals, this is

      (sum over k' of  max ((sum over k of  max (((h[r,k] - mu[k]) * rsqrt (var[k] + eps)) * g[k] + b[k]) 0 * W2[k,k']) + b2[k']) 0
                       * Wl[k',j])  +  bl[j],

  every one-row operand (mean, variance, scale, shift, the biases) being read at its single row 0.
-/
import proofs.«181071_j42348377538854_1_alg».proof.Proof.Gen.KernelIdeal.Skeleton
import proofs.«181071_j42348377538854_1_alg».proof.Proof.Spec
import proofs.«181071_j42348377538854_1_alg».proof.Proof.LibPlainContract
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-- A one-row array carried through a same-shape cast and spread over the rows reads, at (p, c), its one row at c. -/
theorem row_apply {a b : Nat} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) :=
  (broadcastTo_1b_ab_apply _ hb p c).trans (congrFun (shapeCast_self v hc) _)

/-- The stored block at row r, column j: the three layers after the first, as nested sums. The two matrix products are
    plain [2000,256] x [256,256] and [2000,256] x [256,40] contractions into a zero accumulator; everything else is
    entrywise, the one-row operands read at row 0. -/
theorem pay_apply (h : Vec Ideal S2000x256 .f32) (var mu g b : Vec Ideal S1x256 .f32) (w2 : Vec Ideal S256x256 .f32)
    (b2 : Vec Ideal S1x256 .f32) (wl : Vec Ideal S256x40 .f32) (bl : Vec Ideal S1x40 .f32) (r : Fin 2000) (j : Fin 40) :
    k1_pay1 (k1_pay2 h var mu g b w2 b2 wl) (k1_pay3 bl) (ix2 r j)
      = (∑ k' : Fin 256, max ((∑ k : Fin 256, max ((((h (ix2 r k) - mu (ix2 0 k)) * Ideal.rsqrt (var (ix2 0 k) + Cert.Gin.eps)) * g (ix2 0 k)) + b (ix2 0 k)) Cert.Gin.zero * w2 (ix2 k k')) + b2 (ix2 0 k')) Cert.Gin.zero * wl (ix2 k' j)) + bl (ix2 0 j) := by
  unfold k1_pay1 k1_pay2 k1_pay3
  dsimp only
  -- the last bias, then the last product
  refine (addf_apply _ _ _).trans ?_
  refine congrArg₂ (· + ·) ?_ (row_apply bl _ _ r j)
  refine (Cert.LibPlainContract.matmul_plain_apply 2000 256 40 none _ _ r j).trans ?_
  refine Finset.sum_congr rfl fun k' _ => ?_
  refine congrArg (· * wl (ix2 k' j)) ?_
  -- the second clamp, the second bias, the second product
  refine (maximumf_apply _ _ _).trans ?_
  refine congrArg (max · Cert.Gin.zero) ?_
  refine (addf_apply _ _ _).trans ?_
  refine congrArg₂ (· + ·) ?_ (row_apply b2 _ _ r k')
  refine (Cert.LibPlainContract.matmul_plain_apply 2000 256 256 none _ _ r k').trans ?_
  refine Finset.sum_congr rfl fun k _ => ?_
  refine congrArg (· * w2 (ix2 k k')) ?_
  -- the first clamp, the shift, the scale, the normalisation
  refine (maximumf_apply _ _ _).trans ?_
  refine congrArg (max · Cert.Gin.zero) ?_
  refine (addf_apply _ _ _).trans ?_
  refine congrArg₂ (· + ·) ?_ (row_apply b _ _ r k)
  refine (mulf_apply _ _ _).trans ?_
  refine congrArg₂ (· * ·) ?_ (row_apply g _ _ r k)
  refine (mulf_apply _ _ _).trans ?_
  refine congrArg₂ (· * ·) ?_ ?_
  · refine (subf_apply _ _ _).trans ?_
    exact congrArg₂ (· - ·) (congrFun (shapeCast_self h _) _) (row_apply mu _ _ r k)
  · refine (broadcastTo_1b_ab_apply _ _ r k).trans ?_
    exact congrArg (fun x => Ideal.rsqrt (x + Cert.Gin.eps)) (congrFun (shapeCast_self var _) _)

end Cert.KernelIdeal.KValue

end
-- ==== Proof.K1Value.lean ====
/-
  The value of the second kernel: the result array after the region, as a function of the arrays the region finds.

  The second kernel walks the 50000 rows of the first layer's output in 25 blocks of 2000 rows. At point t it reads block
  t of that output and, whole, the mean row, the variance row, the scale and shift rows, the two remaining weight
  matrices and their bias rows, and stores block t of the result. Entry (r, j) of the stored block is the network's
  result at row 2000 t + r, column j: the arithmetic at an entry (K1Pay.lean) with every operand read where its block
  sits in its array — a block's coordinate in the array is its block index times the block's size plus the coordinate
  inside the block, and the block indices are t on the row axis of the two walked arrays and 0 everywhere else. Every
  point writes its block back and row p lies in the block of point p / 2000, so the 25 blocks tile the array and after
  the region it holds the network's result everywhere.
-/
import proofs.«181071_j42348377538854_1_alg».proof.Proof.Gen.KernelIdeal.Frame
import proofs.«181071_j42348377538854_1_alg».proof.Proof.Spec
import proofs.«181071_j42348377538854_1_alg».proof.Proof.LibPlainContract
import proofs.«181071_j42348377538854_1_alg».proof.Proof.K1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The grid has 25 points. -/
theorem points_lt (t : Fin cfg1.N) : t.val < 25 := lt_of_lt_of_eq t.isLt N_1

/-- Row r of the block at point t is row 2000 t + r of the whole array. -/
def rowAt (t : Fin cfg1.N) (r : Fin 2000) : Fin 50000 :=
  ⟨2000 * t.val + r.val, by have := points_lt t; have := r.isLt; omega⟩

/-- The network's result as a function of the arrays the region finds: the first layer's output, the mean row and the
    variance row, the scale and shift rows, the two remaining weight matrices and their bias rows. -/
abbrev netOut (c : Dev nD) : Cert.Gin.A2 50000 40 :=
  Cert.Gin.out (fun p q => V c main_v19_0 (ix2 p q)) (fun q => V c main_v21 (ix2 0 q)) (fun q => V c main_v25 (ix2 0 q))
    (fun i => V c main_v15 (ix2 0 (i 0))) (fun i => V c main_v16 (ix2 0 (i 0))) (V c main_arg6)
    (fun i => V c main_v17 (ix2 0 (i 0))) (V c main_arg8) (fun i => V c main_v18 (ix2 0 (i 0)))

/-- The block indices, decided once over the 25 points: the first layer's output and the result move down by one block
    of rows per point; every other operand is its whole array at block (0, 0). -/
theorem index_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-! ## Each input block, read where it sits in its array -/

theorem blk0_apply (c : Dev nD) (t : Fin cfg1.N) (r : Fin 2000) (k : Fin 256) :
    iblk1 V c 0 t (ix2 r k) = V c main_v19_0 (ix2 (rowAt t r) k) := by
  obtain ⟨⟨e0, e1⟩, -⟩ := index_facts t
  show V c main_v19_0 (((cfg1.win 0).blk t).view.emb (ix2 r k)) = V c main_v19_0 (ix2 (rowAt t r) k)
  refine congrArg (V c main_v19_0) (funext fun a => Fin.ext ?_)
  match a with
  | ⟨0, _⟩ => show win1_0.index t (0 : Fin 2) * 2000 + 1 * r.val = 2000 * t.val + r.val; omega
  | ⟨1, _⟩ => show win1_0.index t (1 : Fin 2) * 256 + 1 * k.val = k.val; omega

theorem blk1_apply (c : Dev nD) (t : Fin cfg1.N) (k : Fin 256) :
    iblk1 V c 1 t (ix2 (0 : Fin 1) k) = V c main_v21 (ix2 (0 : Fin 1) k) := by
  obtain ⟨-, ⟨e0, e1⟩, -⟩ := index_facts t
  show V c main_v21 (((cfg1.win 1).blk t).view.emb (ix2 (0 : Fin 1) k)) = V c main_v21 (ix2 (0 : Fin 1) k)
  refine congrArg (V c main_v21) (funext fun a => Fin.ext ?_)
  match a with
  | ⟨0, _⟩ => show win1_1.index t (0 : Fin 2) * 1 + 1 * 0 = 0; omega
  | ⟨1, _⟩ => show win1_1.index t (1 : Fin 2) * 256 + 1 * k.val = k.val; omega

theorem blk2_apply (c : Dev nD) (t : Fin cfg1.N) (k : Fin 256) :
    iblk1 V c 2 t (ix2 (0 : Fin 1) k) = V c main_v25 (ix2 (0 : Fin 1) k) := by
  obtain ⟨-, -, ⟨e0, e1⟩, -⟩ := index_facts t
  show V c main_v25 (((cfg1.win 2).blk t).view.emb (ix2 (0 : Fin 1) k)) = V c main_v25 (ix2 (0 : Fin 1) k)
  refine congrArg (V c main_v25) (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

theorem blk3_apply (c : Dev nD) (t : Fin cfg1.N) (k : Fin 256) :
    iblk1 V c 3 t (ix2 (0 : Fin 1) k) = V c main_v15 (ix2 (0 : Fin 1) k) := by
  obtain ⟨-, -, -, ⟨e0, e1⟩, -⟩ := index_facts t
  show V c main_v15 (((cfg1.win 3).blk t).view.emb (ix2 (0 : Fin 1) k)) = V c main_v15 (ix2 (0 : Fin 1) k)
  refine congrArg (V c main_v15) (funext fun a => Fin.ext ?_)
  match a with
  | ⟨0, _⟩ => show win1_3.index t (0 : Fin 2) * 1 + 1 * 0 = 0; omega
  | ⟨1, _⟩ => show win1_3.index t (1 : Fin 2) * 256 + 1 * k.val = k.val; omega

theorem blk4_apply (c : Dev nD) (t : Fin cfg1.N) (k : Fin 256) :
    iblk1 V c 4 t (ix2 (0 : Fin 1) k) = V c main_v16 (ix2 (0 : Fin 1) k) := by
  obtain ⟨-, -, -, -, ⟨e0, e1⟩, -⟩ := index_facts t
  show V c main_v16 (((cfg1.win 4).blk t).view.emb (ix2 (0 : Fin 1) k)) = V c main_v16 (ix2 (0 : Fin 1) k)
  refine congrArg (V c main_v16) (funext fun a => Fin.ext ?_)
  match a with
  | ⟨0, _⟩ => show win1_4.index t (0 : Fin 2) * 1 + 1 * 0 = 0; omega
  | ⟨1, _⟩ => show win1_4.index t (1 : Fin 2) * 256 + 1 * k.val = k.val; omega

theorem blk5_apply (c : Dev nD) (t : Fin cfg1.N) (k k' : Fin 256) :
    iblk1 V c 5 t (ix2 k k') = V c main_arg6 (ix2 k k') := by
  obtain ⟨-, -, -, -, -, ⟨e0, e1⟩, -⟩ := index_facts t
  show V c main_arg6 (((cfg1.win 5).blk t).view.emb (ix2 k k')) = V c main_arg6 (ix2 k k')
  refine congrArg (V c main_arg6) (funext fun a => Fin.ext ?_)
  match a with
  | ⟨0, _⟩ => show win1_5.index t (0 : Fin 2) * 256 + 1 * k.val = k.val; omega
  | ⟨1, _⟩ => show win1_5.index t (1 : Fin 2) * 256 + 1 * k'.val = k'.val; omega

theorem blk6_apply (c : Dev nD) (t : Fin cfg1.N) (k : Fin 256) :
    iblk1 V c 6 t (ix2 (0 : Fin 1) k) = V c main_v17 (ix2 (0 : Fin 1) k) := by
  obtain ⟨-, -, -, -, -, -, ⟨e0, e1⟩, -⟩ := index_facts t
  show V c main_v17 (((cfg1.win 6).blk t).view.emb (ix2 (0 : Fin 1) k)) = V c main_v17 (ix2 (0 : Fin 1) k)
  refine congrArg (V c main_v17) (funext fun a => Fin.ext ?_)
  match a with
  | ⟨0, _⟩ => show win1_6.index t (0 : Fin 2) * 1 + 1 * 0 = 0; omega
  | ⟨1, _⟩ => show win1_6.index t (1 : Fin 2) * 256 + 1 * k.val = k.val; omega

theorem blk7_apply (c : Dev nD) (t : Fin cfg1.N) (k : Fin 256) (j : Fin 40) :
    iblk1 V c 7 t (ix2 k j) = V c main_arg8 (ix2 k j) := by
  obtain ⟨-, -, -, -, -, -, -, ⟨e0, e1⟩, -⟩ := index_facts t
  show V c main_arg8 (((cfg1.win 7).blk t).view.emb (ix2 k j)) = V c main_arg8 (ix2 k j)
  refine congrArg (V c main_arg8) (funext fun a => Fin.ext ?_)
  match a with
  | ⟨0, _⟩ => show win1_7.index t (0 : Fin 2) * 256 + 1 * k.val = k.val; omega
  | ⟨1, _⟩ => show win1_7.index t (1 : Fin 2) * 40 + 1 * j.val = j.val; omega

theorem blk8_apply (c : Dev nD) (t : Fin cfg1.N) (j : Fin 40) :
    iblk1 V c 8 t (ix2 (0 : Fin 1) j) = V c main_v18 (ix2 (0 : Fin 1) j) := by
  obtain ⟨-, -, -, -, -, -, -, -, ⟨e0, e1⟩, -⟩ := index_facts t
  show V c main_v18 (((cfg1.win 8).blk t).view.emb (ix2 (0 : Fin 1) j)) = V c main_v18 (ix2 (0 : Fin 1) j)
  refine congrArg (V c main_v18) (funext fun a => Fin.ext ?_)
  match a with
  | ⟨0, _⟩ => show win1_8.index t (0 : Fin 2) * 1 + 1 * 0 = 0; omega
  | ⟨1, _⟩ => show win1_8.index t (1 : Fin 2) * 40 + 1 * j.val = j.val; omega

/-! ## The stored block is the network's result on the block's rows -/

/-- Entry (r, j) of what point t stores is the network's result at row 2000 t + r, column j. -/
theorem block_value (c : Dev nD) (t : Fin cfg1.N) (r : Fin 2000) (j : Fin 40) :
    k1_pay1 (k1_pay2 (iblk1 V c 0 t) (iblk1 V c 2 t) (iblk1 V c 1 t) (iblk1 V c 3 t) (iblk1 V c 4 t) (iblk1 V c 5 t) (iblk1 V c 6 t) (iblk1 V c 7 t)) (k1_pay3 (iblk1 V c 8 t)) (ix2 r j)
      = netOut V c (ix2 (rowAt t r) j) := by
  refine (pay_apply (iblk1 V c 0 t) (iblk1 V c 2 t) (iblk1 V c 1 t) (iblk1 V c 3 t) (iblk1 V c 4 t) (iblk1 V c 5 t) (iblk1 V c 6 t) (iblk1 V c 7 t) (iblk1 V c 8 t) r j).trans ?_
  refine Eq.trans ?_ (Cert.Gin.out_apply _ _ _ _ _ _ _ _ _ (rowAt t r) j).symm
  unfold Cert.Gin.lin3 Cert.Gin.lin2 Cert.Gin.hidden
  refine congrArg₂ (· + ·) (Finset.sum_congr rfl fun k' _ => ?_) (blk8_apply V c t j)
  refine congrArg₂ (· * ·) (congrArg (max · Cert.Gin.zero) ?_) (blk7_apply V c t k' j)
  refine congrArg₂ (· + ·) (Finset.sum_congr rfl fun k _ => ?_) (blk6_apply V c t k')
  refine congrArg₂ (· * ·) (congrArg (max · Cert.Gin.zero) ?_) (blk5_apply V c t k k')
  refine congrArg₂ (· + ·) ?_ (blk4_apply V c t k)
  refine congrArg₂ (· * ·) ?_ (blk3_apply V c t k)
  refine congrArg₂ (· * ·) (congrArg₂ (· - ·) (blk0_apply V c t r k) (blk1_apply V c t k)) ?_
  exact congrArg (fun x => Ideal.rsqrt (x + Cert.Gin.eps)) (blk2_apply V c t k)

/-- What point t writes back is block t of the network's result. -/
theorem flushed_eq (c : Dev nD) (t : Fin cfg1.N) :
    (dat1 V c).flushed 9 t = ((cfg1.win 9).blk t).view.read (Elt Ideal) (netOut V c) := by
  show (cfg1.win 9).cut (grid1.coords t) ((dat1 V c).after 9 t) = _
  rw [after1_9]
  unfold out1_9
  rw [View.canon_unit_zero zeros2]
  simp only [View.ld_unit_zero (S := S2000x256) zeros2, View.ld_unit_zero (S := S1x256) zeros2,
    View.ld_unit_zero (S := S256x256) zeros2, View.ld_unit_zero (S := S256x40) zeros2, View.ld_unit_zero (S := S1x40) zeros2]
  funext y
  obtain ⟨r, j, rfl⟩ : ∃ (r : Fin 2000) (j : Fin 40), y = ix2 r j := ⟨y 0, y 1, eq_ix2 y⟩
  obtain ⟨-, -, -, -, -, -, -, -, -, e0, e1⟩ := index_facts t
  have hrow : ((cfg1.win 9).blk t).view.emb (ix2 r j) = ix2 (rowAt t r) j := funext fun a => Fin.ext (by
    match a with
    | ⟨0, _⟩ => show win1_9.index t (0 : Fin 2) * 2000 + 1 * r.val = 2000 * t.val + r.val; omega
    | ⟨1, _⟩ => show win1_9.index t (1 : Fin 2) * 40 + 1 * j.val = j.val; omega)
  show _ = netOut V c (((cfg1.win 9).blk t).view.emb (ix2 r j))
  rw [hrow]
  exact block_value V c t r j

/-! ## The blocks tile the result array -/

/-- An index of the result array is in point t's block iff each coordinate is in the block's range on its axis. -/
theorem mem_blk (t : Fin cfg1.N) (i : S50000x40.Idx) :
    i ∈ ((cfg1.win 9).blk t).view.set ↔ ∀ a : Fin 2, win1_9.index t a * S2000x40.size a ≤ (i a).val ∧ (i a).val < win1_9.index t a * S2000x40.size a + S2000x40.size a := by
  show i ∈ ((View.whole main_v26).slice (win1_9.rect t)).set ↔ _
  rw [View.set_slice_whole, Rect.mem_set_unit]
  exact Iff.rfl

/-- Row p of the result is written by point p / 2000. -/
theorem cover (i : S50000x40.Idx) : ∃ t : Fin cfg1.N, (cfg1.win 9).flush t = true ∧ i ∈ ((cfg1.win 9).blk t).view.set := by
  have hi0 : (i 0).val < 50000 := (i 0).isLt
  have hi1 : (i 1).val < 40 := (i 1).isLt
  have ht : (i 0).val / 2000 < cfg1.N := lt_of_lt_of_eq (by omega : (i 0).val / 2000 < 25) N_1.symm
  obtain ⟨-, -, -, -, -, -, -, -, -, e0, e1⟩ := index_facts ⟨(i 0).val / 2000, ht⟩
  refine ⟨⟨(i 0).val / 2000, ht⟩, flush1_9 _, ?_⟩
  rw [mem_blk]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, ht⟩ (1 : Fin 2) * 40 ≤ (i 1).val ∧ (i 1).val < win1_9.index ⟨(i 0).val / 2000, ht⟩ (1 : Fin 2) * 40 + 40
    rw [e1]; omega

/-! ## The result array after the region -/

/-- After the second kernel the result array holds the network's result, as a function of the arrays the region finds:
    every point writes its block of it, and the 25 blocks of 2000 rows tile the 50000 rows. -/
theorem region1_value (c : Dev nD) :
    (Gen.dat1 (F := Ideal) V c).arrAt 9 cfg1.N
      = Cert.Gin.out (fun p q => V c main_v19_0 (ix2 p q)) (fun q => V c main_v21 (ix2 0 q)) (fun q => V c main_v25 (ix2 0 q))
          (fun i => V c main_v15 (ix2 0 (i 0))) (fun i => V c main_v16 (ix2 0 (i 0))) (V c main_arg6)
          (fun i => V c main_v17 (ix2 0 (i 0))) (V c main_arg8) (fun i => V c main_v18 (ix2 0 (i 0))) :=
  (dat1 V c).arrAt_eq_of_cover 9 (netOut V c) (fun t _ => flushed_eq V c t) cover

end Cert.KernelIdeal.KValue

end
-- ==== Proof.KHost.lean ====
/-
  The host operations of the program read as values.

  Before the first region the host computes the neighbour sums (a gather of rows of x at the edges' source column,
  scatter-added into zeros at the destination column) and reshapes the bias and scale vectors [n] to rows [1, n];
  between the two regions it divides the column sums and the column sums of squares by the number of nodes and forms
  the variance as the mean of the squares minus the squared mean. Each lemma below reads one buffer after such a
  stretch of operations as the operations' composed term, at an index where the term is a reshape or a row.
-/
import proofs.«181071_j42348377538854_1_alg».proof.Proof.Gen.KernelIdeal.Frame
import proofs.«181071_j42348377538854_1_alg».proof.Proof.Spec
import proofs.«181071_j42348377538854_1_alg».proof.Proof.Algebra
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## Before the first region -/

/-- No host operation writes the node features: they are as launched. -/
theorem V1_x : V1 m ρ c main_arg0 = m ((c : Thread nD τ).loc main_arg0) := by
  show StableHlo.after hostOps0 (W0 m ρ c) (Proc.devRef .tc main_arg0) = _
  after_results

/-- Nor the first weight matrix. -/
theorem V1_W1 : V1 m ρ c main_arg2 = m ((c : Thread nD τ).loc main_arg2) := by
  show StableHlo.after hostOps0 (W0 m ρ c) (Proc.devRef .tc main_arg2) = _
  after_results

/-- The first bias as a row [1, 256]: entry (0, q) is the vector's entry q. -/
theorem V1_b1 (q : Fin 256) :
    V1 m ρ c main_v14 (ix2 (0 : Fin 1) q) = m ((c : Thread nD τ).loc main_arg3) (ix1 q) := by
  show StableHlo.after hostOps0 (W0 m ρ c) (Proc.devRef .tc main_v14) (ix2 (0 : Fin 1) q) = _
  after_results
  exact shapeCast_a_1a_apply _ _ 0 q

/-! ## Between the two regions -/

/-- The first region's first output (the linear layer) is not written between the regions. -/
theorem V3_h1 : V3 m ρ c main_v19_0 = W2 m ρ c (Proc.devRef .tc main_v19_0) := by
  show StableHlo.after hostOps1 (W2 m ρ c) (Proc.devRef .tc main_v19_0) = _
  after_results

/-- The mean: the first region's column sums divided by the number of nodes. -/
theorem V3_mean (q : Fin 256) :
    V3 m ρ c main_v21 (ix2 (0 : Fin 1) q)
      = Ideal.div (W2 m ρ c (Proc.devRef .tc main_v19_1) (ix2 (0 : Fin 1) q)) Cert.Gin.nNodes := by
  show StableHlo.after hostOps1 (W2 m ρ c) (Proc.devRef .tc main_v21) (ix2 (0 : Fin 1) q) = _
  after_results
  rfl

/-- The variance: the column sums of squares divided by the number of nodes, minus the squared mean. -/
theorem V3_var (q : Fin 256) :
    V3 m ρ c main_v25 (ix2 (0 : Fin 1) q)
      = Ideal.div (W2 m ρ c (Proc.devRef .tc main_v19_2) (ix2 (0 : Fin 1) q)) Cert.Gin.nNodes
        - Ideal.div (W2 m ρ c (Proc.devRef .tc main_v19_1) (ix2 (0 : Fin 1) q)) Cert.Gin.nNodes
          * Ideal.div (W2 m ρ c (Proc.devRef .tc main_v19_1) (ix2 (0 : Fin 1) q)) Cert.Gin.nNodes := by
  show StableHlo.after hostOps1 (W2 m ρ c) (Proc.devRef .tc main_v25) (ix2 (0 : Fin 1) q) = _
  after_results
  rfl

/-- A row [1, n] that the host reshaped from a vector before the first region, and that neither the first region nor
    the operations between the regions write, still reads the launched vector. -/
theorem V3_gamma (q : Fin 256) :
    V3 m ρ c main_v15 (ix2 (0 : Fin 1) q) = m ((c : Thread nD τ).loc main_arg4) (ix1 q) := by
  have e3 : V3 m ρ c main_v15 = W2 m ρ c (Proc.devRef .tc main_v15) := by
    show StableHlo.after hostOps1 (W2 m ρ c) (Proc.devRef .tc main_v15) = _
    after_results
  rw [e3, W2_of_ne m ρ c main_v15 (by decide)]
  show StableHlo.after hostOps0 (W0 m ρ c) (Proc.devRef .tc main_v15) (ix2 (0 : Fin 1) q) = _
  after_results
  exact shapeCast_a_1a_apply _ _ 0 q

theorem V3_beta (q : Fin 256) :
    V3 m ρ c main_v16 (ix2 (0 : Fin 1) q) = m ((c : Thread nD τ).loc main_arg5) (ix1 q) := by
  have e3 : V3 m ρ c main_v16 = W2 m ρ c (Proc.devRef .tc main_v16) := by
    show StableHlo.after hostOps1 (W2 m ρ c) (Proc.devRef .tc main_v16) = _
    after_results
  rw [e3, W2_of_ne m ρ c main_v16 (by decide)]
  show StableHlo.after hostOps0 (W0 m ρ c) (Proc.devRef .tc main_v16) (ix2 (0 : Fin 1) q) = _
  after_results
  exact shapeCast_a_1a_apply _ _ 0 q

theorem V3_b2 (q : Fin 256) :
    V3 m ρ c main_v17 (ix2 (0 : Fin 1) q) = m ((c : Thread nD τ).loc main_arg7) (ix1 q) := by
  have e3 : V3 m ρ c main_v17 = W2 m ρ c (Proc.devRef .tc main_v17) := by
    show StableHlo.after hostOps1 (W2 m ρ c) (Proc.devRef .tc main_v17) = _
    after_results
  rw [e3, W2_of_ne m ρ c main_v17 (by decide)]
  show StableHlo.after hostOps0 (W0 m ρ c) (Proc.devRef .tc main_v17) (ix2 (0 : Fin 1) q) = _
  after_results
  exact shapeCast_a_1a_apply _ _ 0 q

theorem V3_bl (j : Fin 40) :
    V3 m ρ c main_v18 (ix2 (0 : Fin 1) j) = m ((c : Thread nD τ).loc main_arg9) (ix1 j) := by
  have e3 : V3 m ρ c main_v18 = W2 m ρ c (Proc.devRef .tc main_v18) := by
    show StableHlo.after hostOps1 (W2 m ρ c) (Proc.devRef .tc main_v18) = _
    after_results
  rw [e3, W2_of_ne m ρ c main_v18 (by decide)]
  show StableHlo.after hostOps0 (W0 m ρ c) (Proc.devRef .tc main_v18) (ix2 (0 : Fin 1) j) = _
  after_results
  exact shapeCast_a_1a_apply _ _ 0 j

/-- The later weight matrices are as launched: nothing before the second region writes them. -/
theorem V3_W2 : V3 m ρ c main_arg6 = m ((c : Thread nD τ).loc main_arg6) := by
  have e3 : V3 m ρ c main_arg6 = W2 m ρ c (Proc.devRef .tc main_arg6) := by
    show StableHlo.after hostOps1 (W2 m ρ c) (Proc.devRef .tc main_arg6) = _
    after_results
  rw [e3, W2_of_ne m ρ c main_arg6 (by decide)]
  show StableHlo.after hostOps0 (W0 m ρ c) (Proc.devRef .tc main_arg6) = _
  after_results

theorem V3_Wl : V3 m ρ c main_arg8 = m ((c : Thread nD τ).loc main_arg8) := by
  have e3 : V3 m ρ c main_arg8 = W2 m ρ c (Proc.devRef .tc main_arg8) := by
    show StableHlo.after hostOps1 (W2 m ρ c) (Proc.devRef .tc main_arg8) = _
    after_results
  rw [e3, W2_of_ne m ρ c main_arg8 (by decide)]
  show StableHlo.after hostOps0 (W0 m ρ c) (Proc.devRef .tc main_arg8) = _
  after_results

/-! ## The neighbour sums -/

/-- The edges' source column: row 0 of the edge array as a vector of 600000 integers. -/
def srcCol (e : IVec S2x600000 32) : IVec S600000 32 :=
  shapeCast S600000 (extractStridedSlice S1x600000 ![0, 0] e slices_S2x600000_S1x600000_0_0) shapeCasts_S1x600000_S600000

/-- The edges' destination column: row 1 of the edge array. -/
def dstCol (e : IVec S2x600000 32) : IVec S600000 32 :=
  shapeCast S600000 (extractStridedSlice S1x600000 ![1, 0] e slices_S2x600000_S1x600000_1_0) shapeCasts_S1x600000_S600000

/-- The neighbour sums: the rows of x gathered at the source column (a negative index wrapped by adding the number of
    nodes, as array indexing does), scatter-added into an array of zeros at the destination column. -/
def agg (x : FVec Ideal S50000x128 .f32) (e : IVec S2x600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstCol e))
    (Host.gather gather_S50000x128_S600000x1_S600000x128_1_0_n_n_0_1_1128 x
      (broadcastInDim S600000x1 ![0] bcast_S600000_S600000x1_0
        (select (cmpi .slt (srcCol e) (broadcastInDim S600000 ![] bcast_S_S600000 (constantI S_ 32 0#32)))
          (addi (srcCol e) (broadcastInDim S600000 ![] bcast_S_S600000 (constantI S_ 32 50000#32)))
          (srcCol e))))

/-- The buffer the first region reads the neighbour sums from holds agg of the launched features and edges. -/
theorem V1_agg :
    V1 m ρ c main_v13 = agg (m ((c : Thread nD τ).loc main_arg0)) (m ((c : Thread nD τ).loc main_arg1)) := by
  show StableHlo.after hostOps0 (W0 m ρ c) (Proc.devRef .tc main_v13) = _
  after_results
  rfl

/-- The neighbour sums of a real array are real: zeros plus finite sums of entries of x. -/
theorem agg_real (x : FVec Ideal S50000x128 .f32) (e : IVec S2x600000 32)
    (hx : ∀ i, Idealize.ShloMosaic.SoftmaxUnit.IsReal (x i)) :
    ∀ i, Idealize.ShloMosaic.SoftmaxUnit.IsReal (agg x e i) := by
  have hz : ∀ i, Idealize.ShloMosaic.SoftmaxUnit.IsReal
      ((broadcastInDim S50000x128 ![] bcast_S_S50000x128 (constant (F := Ideal) S_ .f32 0x00000000#32) :
        FVec Ideal S50000x128 .f32) i) := by
    intro i
    show Idealize.ShloMosaic.SoftmaxUnit.IsReal (Ideal.ofBits .f32 0x00000000#32)
    rw [Ideal.ofBits_zero_f32]
    exact Idealize.ShloMosaic.SoftmaxUnit.IsReal.zero
  unfold agg
  exact Cert.Gin.scatter_gather_real scatter_S50000x128_S600000x1_S600000x128_1_0_0_1_wf
    gather_S50000x128_S600000x1_S600000x128_1_0_n_n_0_1_1128_wf x _ hx hz _ _

end Cert.KernelIdeal.KValue

end
-- ==== Proof.KValue.lean ====
/-
  The idealized kernel's result, as one function of its argument arrays.

  The result buffer ends at the second kernel's output array, which is the network's tail `out` of the arrays that
  kernel is entered with: the first kernel's block array, the mean row and the variance row the host computes between the
  kernels, and the reshaped parameter rows. The first kernel's block array is the first linear layer Y of x + agg; its
  row of sums divided by the number of nodes is Y's column mean; its row of squares divided by the number of nodes, minus
  the squared mean, is the variance as "mean of squares minus squared mean". The reshaped rows read the parameters.
-/
import proofs.«181071_j42348377538854_1_alg».proof.Proof.KRun
import proofs.«181071_j42348377538854_1_alg».proof.Proof.K0Final
import proofs.«181071_j42348377538854_1_alg».proof.Proof.K1Value
import proofs.«181071_j42348377538854_1_alg».proof.Proof.KHost

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The first linear layer of x + agg, over the argument arrays. -/
def Ym (c : Dev nD) : Fin 50000 → Fin 256 → EReal :=
  Cert.Gin.lin1 (m ((c.tc : Thread nD τ).loc main_arg0)) (agg (m ((c.tc : Thread nD τ).loc main_arg0)) (m ((c.tc : Thread nD τ).loc main_arg1))) (m ((c.tc : Thread nD τ).loc main_arg2)) (m ((c.tc : Thread nD τ).loc main_arg3))

/-- The program's result. -/
def kout (c : Dev nD) : Cert.Gin.A2 50000 40 :=
  Cert.Gin.out (Ym m c) (Cert.Gin.mean (Ym m c)) (Cert.Gin.varSq (Ym m c)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

/-- The first linear layer over the arrays the first kernel is entered with is the one over the arguments. -/
theorem Yv_eq (c : Dev nD) (p : Fin 50000) (q : Fin 256) : Yv (V1 m ρ) c p q = Ym m c p q := by
  unfold Yv Ym Cert.Gin.lin1 aX aAgg aW1 aB1
  rw [V1_x, V1_agg, V1_W1, V1_b1]

theorem h1_eq (c : Dev nD) : (fun p q => V3 m ρ c main_v19_0 (ix2 p q)) = Ym m c := by
  funext p q
  rw [V3_h1, show W2 m ρ c (Proc.devRef .tc main_v19_0) = (dat0 (V1 m ρ) c).arrAt 4 cfg0.N from W2_arr m ρ c 4, final4]
  exact Yv_eq m ρ c p q

theorem sums_eq (c : Dev nD) (q : Fin 256) :
    @Eq EReal (W2 m ρ c (Proc.devRef .tc main_v19_1) (ix2 (0 : Fin 1) q)) (∑ p : Fin 50000, Ym m c p q) := by
  rw [show W2 m ρ c (Proc.devRef .tc main_v19_1) = (dat0 (V1 m ρ) c).arrAt 5 cfg0.N from W2_arr m ρ c 5, final5, G5_apply]
  exact Finset.sum_congr rfl fun p _ => Yv_eq m ρ c p q

theorem squares_eq (c : Dev nD) (q : Fin 256) :
    @Eq EReal (W2 m ρ c (Proc.devRef .tc main_v19_2) (ix2 (0 : Fin 1) q)) (∑ p : Fin 50000, Ym m c p q * Ym m c p q) := by
  rw [show W2 m ρ c (Proc.devRef .tc main_v19_2) = (dat0 (V1 m ρ) c).arrAt 6 cfg0.N from W2_arr m ρ c 6, final6, G6_apply]
  exact Finset.sum_congr rfl fun p _ => by rw [Yv_eq]

theorem mean_eq (c : Dev nD) : (fun q => V3 m ρ c main_v21 (ix2 (0 : Fin 1) q)) = Cert.Gin.mean (Ym m c) := by
  funext q
  rw [V3_mean, sums_eq]
  unfold Cert.Gin.mean
  rfl

theorem var_eq (c : Dev nD) : (fun q => V3 m ρ c main_v25 (ix2 (0 : Fin 1) q)) = Cert.Gin.varSq (Ym m c) := by
  funext q
  rw [V3_var, squares_eq, sums_eq]
  unfold Cert.Gin.varSq Cert.Gin.mean
  rfl

/-- The result buffer's final contents are the network's tail of Y, its mean and its variance. -/
theorem result_eq (c : Dev nD) : W4 m ρ c (Proc.devRef .tc main_v26) = kout m c := by
  refine (W4_arr m ρ c 9).trans ?_
  rw [region1_value (V3 m ρ) c, h1_eq, mean_eq, var_eq]
  unfold kout
  have hg : (fun i : (⟨1, ![256]⟩ : Shape).Idx => V3 m ρ c main_v15 (ix2 (0 : Fin 1) (i 0))) = (m ((c.tc : Thread nD τ).loc main_arg4)) :=
    funext fun i => (V3_gamma m ρ c (i 0)).trans (congrArg _ (eq_ix1 i).symm)
  have hb : (fun i : (⟨1, ![256]⟩ : Shape).Idx => V3 m ρ c main_v16 (ix2 (0 : Fin 1) (i 0))) = (m ((c.tc : Thread nD τ).loc main_arg5)) :=
    funext fun i => (V3_beta m ρ c (i 0)).trans (congrArg _ (eq_ix1 i).symm)
  have hb2 : (fun i : (⟨1, ![256]⟩ : Shape).Idx => V3 m ρ c main_v17 (ix2 (0 : Fin 1) (i 0))) = (m ((c.tc : Thread nD τ).loc main_arg7)) :=
    funext fun i => (V3_b2 m ρ c (i 0)).trans (congrArg _ (eq_ix1 i).symm)
  have hbl : (fun i : (⟨1, ![40]⟩ : Shape).Idx => V3 m ρ c main_v18 (ix2 (0 : Fin 1) (i 0))) = (m ((c.tc : Thread nD τ).loc main_arg9)) :=
    funext fun i => (V3_bl m ρ c (i 0)).trans (congrArg _ (eq_ix1 i).symm)
  rw [hg, hb, hb2, hbl, V3_W2, V3_Wl]

/-- Every weakly fair execution of the program terminates without a fault, the result buffer at `kout`, the arguments
    as launched. -/
theorem run : θ_run (defs (F := Ideal)) (onTc (τ := τ) (main (F := Ideal))) ⟨m, fun _ => 0, ρ⟩ (fun r => ∀ c : Dev nD,
      r.2.mem ((c.tc : Thread nD τ).loc main_v26) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_result m ρ)

end Cert.KernelIdeal.KValue

end
-- ==== Proof.RefRun.lean ====
/-
  The reference program's run. Its @main is the list of its eighty host operations in order, each call's body listed
  at the call site over that call's buffers. The stages of the computation are plain functions of the argument arrays
  (the neighbour sums, the first linear layer, the column means and variances, the hidden layer, the second layer,
  the result). The run: every weakly fair execution terminates with the result buffer at the stages' composition of
  the arguments' launch contents, the ten arguments unchanged.
-/
import proofs.«181071_j42348377538854_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- @main's eighty operations, in order: the twenty-eight before the variance, the variance's nineteen and the three
    of the selection inside it, sixteen of the normalisation, the clamp's three, the second layer's four, the
    clamp's three again, the last layer's four. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v18 main_cst_1 main_v19 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v20 (broadcastInDim S256 ![] bcast_S_S256 : (⟨S_, .f32⟩ : BufTy).Contents (Elt F) → (⟨S256, .f32⟩ : BufTy).Contents (Elt F)),
    binary main_v19 main_v20 main_v21 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S50000x256_S256_d0 h_S_),
    TRef.unary main_call0.v0 main_call0.v1 (broadcastInDim S1x256 ![1] bcast_S256_S1x256_1),
    TRef.nullary main_call0.cst_0 (constant S_ .f32 0x47435000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S50000x256 ![0, 1] bcast_S1x256_S50000x256_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v21 main_v23 (broadcastInDim S1x256 ![1] bcast_S256_S1x256_1 : (⟨S256, .f32⟩ : BufTy).Contents (Elt F) → (⟨S1x256, .f32⟩ : BufTy).Contents (Elt F)),
    unary main_v23 main_v24 (broadcastInDim S50000x256 ![0, 1] bcast_S1x256_S50000x256_0_1 : (⟨S1x256, .f32⟩ : BufTy).Contents (Elt F) → (⟨S50000x256, .f32⟩ : BufTy).Contents (Elt F)),
    binary main_v18 main_v24 main_v25 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v26 (broadcastInDim S256 ![] bcast_S_S256 : (⟨S_, .f32⟩ : BufTy).Contents (Elt F) → (⟨S256, .f32⟩ : BufTy).Contents (Elt F)),
    binary main_v22 main_v26 main_v27 (addf : (⟨S256, .f32⟩ : BufTy).Contents (Elt F) → (⟨S256, .f32⟩ : BufTy).Contents (Elt F) → (⟨S256, .f32⟩ : BufTy).Contents (Elt F)),
    unary main_v27 main_v28 (Host.rsqrt : (⟨S256, .f32⟩ : BufTy).Contents (Elt F) → (⟨S256, .f32⟩ : BufTy).Contents (Elt F)),
    unary main_v28 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v25 main_v30 main_v31 (mulf : (⟨S50000x256, .f32⟩ : BufTy).Contents (Elt F) → (⟨S50000x256, .f32⟩ : BufTy).Contents (Elt F) → (⟨S50000x256, .f32⟩ : BufTy).Contents (Elt F)),
    unary main_arg4 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (mulf : (⟨S50000x256, .f32⟩ : BufTy).Contents (Elt F) → (⟨S50000x256, .f32⟩ : BufTy).Contents (Elt F) → (⟨S50000x256, .f32⟩ : BufTy).Contents (Elt F)),
    unary main_arg5 main_v35 (broadcastInDim S1x256 ![1] bcast_S256_S1x256_1 : (⟨S256, .f32⟩ : BufTy).Contents (Elt F) → (⟨S1x256, .f32⟩ : BufTy).Contents (Elt F)),
    unary main_v35 main_v36 (broadcastInDim S50000x256 ![0, 1] bcast_S1x256_S50000x256_0_1 : (⟨S1x256, .f32⟩ : BufTy).Contents (Elt F) → (⟨S50000x256, .f32⟩ : BufTy).Contents (Elt F)),
    binary main_v34 main_v36 main_v37 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v37) main_call1.v0 main_call1.v1 maximumf,
    binary main_v38 main_arg6 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v40 (broadcastInDim S1x256 ![1] bcast_S256_S1x256_1 : (⟨S256, .f32⟩ : BufTy).Contents (Elt F) → (⟨S1x256, .f32⟩ : BufTy).Contents (Elt F)),
    unary main_v40 main_v41 (broadcastInDim S50000x256 ![0, 1] bcast_S1x256_S50000x256_0_1 : (⟨S1x256, .f32⟩ : BufTy).Contents (Elt F) → (⟨S50000x256, .f32⟩ : BufTy).Contents (Elt F)),
    binary main_v39 main_v41 main_v42 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v42) main_call2.v0 main_call2.v1 maximumf,
    binary main_v43 main_arg8 main_v44 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v45 (broadcastInDim S1x40 ![1] bcast_S40_S1x40_1 : (⟨S40, .f32⟩ : BufTy).Contents (Elt F) → (⟨S1x40, .f32⟩ : BufTy).Contents (Elt F)),
    unary main_v45 main_v46 (broadcastInDim S50000x40 ![0, 1] bcast_S1x40_S50000x40_0_1 : (⟨S1x40, .f32⟩ : BufTy).Contents (Elt F) → (⟨S50000x40, .f32⟩ : BufTy).Contents (Elt F)),
    binary main_v44 main_v46 main_v47 (addf : (⟨S50000x40, .f32⟩ : BufTy).Contents (Elt F) → (⟨S50000x40, .f32⟩ : BufTy).Contents (Elt F) → (⟨S50000x40, .f32⟩ : BufTy).Contents (Elt F)) ]

/-! ## The stages, as functions of the arrays

Each is the composition of the operations between two named values of @main, spelt with the operations' own functions,
so that the run's composed term is these applied to one another. -/

/-- The source row of the edge table, as a vector: operations %0, %1. -/
def srcRow (e : IVec S2x600000 32) : IVec S600000 32 :=
  fun i => shapeCast S600000 (extractStridedSlice S1x600000 ![0, 0] e slices_S2x600000_S1x600000_0_0) shapeCasts_S1x600000_S600000 i

/-- The destination row of the edge table, as a vector: operations %2, %3. -/
def dstRow (e : IVec S2x600000 32) : IVec S600000 32 :=
  fun i => shapeCast S600000 (extractStridedSlice S1x600000 ![1, 0] e slices_S2x600000_S1x600000_1_0) shapeCasts_S1x600000_S600000 i

/-- The neighbour sums: operations %0 … %13. The source indices, a negative one moved up by the number of nodes, gather
    the rows of x; the rows are added into a zero array at the destination indices. -/
def agg (x : FVec F S50000x128 .f32) (e : IVec S2x600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 (dstRow e))
    (Host.gather gather_S50000x128_S600000x1_S600000x128_1_0_n_n_0_1_1128 x
      (broadcastInDim S600000x1 ![0] bcast_S600000_S600000x1_0
        (select (cmpi .slt (srcRow e) (broadcastInDim S600000 ![] bcast_S_S600000 (constantI S_ 32 0#32)))
          (addi (srcRow e) (broadcastInDim S600000 ![] bcast_S_S600000 (constantI S_ 32 50000#32)))
          (srcRow e))))

/-- The first linear layer: operations %14 … %18. -/
def stY (x : FVec F S50000x128 .f32) (a : FVec F S50000x128 .f32) (w1 : FVec F S128x256 .f32) (b1 : FVec F S256 .f32) :
    FVec F S50000x256 .f32 :=
  addf (Host.dotGeneral dot_S50000x128_S128x256_S50000x256_1_0_0_1_n_n none (addf x a) w1) (broadcastInDim S50000x256 ![0, 1] bcast_S1x256_S50000x256_0_1 (broadcastInDim S1x256 ![1] bcast_S256_S1x256_1 b1))

/-- The column means: operations %19 … %21. -/
def stMean (y : FVec F S50000x256 .f32) : FVec F S256 .f32 :=
  Host.divf (Host.reduceAdd y (constant S_ .f32 0x00000000#32) reducesTo_S50000x256_S256_d0 h_S_) (broadcastInDim S256 ![] bcast_S_S256 (constant S_ .f32 0x47435000#32))

/-- The count the variance divides by: the number of nodes less the converted integer zero. -/
def stCount : FVec F S_ .f32 :=
  subf (constant S_ .f32 0x47435000#32) (sitofp .f32 (constantI S_ 32 0#32))

/-- The deviations from the column means, as the variance computes them. -/
def stDev (y : FVec F S50000x256 .f32) : FVec F S50000x256 .f32 :=
  subf y (broadcastInDim S50000x256 ![0, 1] bcast_S1x256_S50000x256_0_1 (Host.divf (broadcastInDim S1x256 ![1] bcast_S256_S1x256_1 (Host.reduceAdd y (constant S_ .f32 0x00000000#32) reducesTo_S50000x256_S256_d0 h_S_)) (broadcastInDim S1x256 ![] bcast_S_S1x256 (constant S_ .f32 0x47435000#32))))

/-- The column variances: the call %22, with the selection inside it. -/
def stVar (y : FVec F S50000x256 .f32) : FVec F S256 .f32 :=
  select (broadcastInDim S256 ![] bcast_S_S256 (cmpf .ogt (stCount (F := F)) (constant S_ .f32 0x00000000#32)))
    (Host.divf (Host.reduceAdd (mulf (stDev y) (stDev y)) (constant S_ .f32 0x00000000#32) reducesTo_S50000x256_S256_d0 h_S_) (broadcastInDim S256 ![] bcast_S_S256 (stCount (F := F))))
    (broadcastInDim S256 ![] bcast_S_S256 (id (constant S_ .f32 0x7FC00000#32)))

/-- The hidden layer: operations %23 … %38. -/
def stHid (y : FVec F S50000x256 .f32) (mu var γ β : FVec F S256 .f32) : FVec F S50000x256 .f32 :=
  maximumf
    (addf (mulf (mulf (subf y (broadcastInDim S50000x256 ![0, 1] bcast_S1x256_S50000x256_0_1 (broadcastInDim S1x256 ![1] bcast_S256_S1x256_1 mu)))
        (broadcastInDim S50000x256 ![0, 1] bcast_S1x256_S50000x256_0_1 (broadcastInDim S1x256 ![1] bcast_S256_S1x256_1 (Host.rsqrt (addf var (broadcastInDim S256 ![] bcast_S_S256 (constant S_ .f32 0x3727C5AC#32)))))))
      (broadcastInDim S50000x256 ![0, 1] bcast_S1x256_S50000x256_0_1 (broadcastInDim S1x256 ![1] bcast_S256_S1x256_1 γ))) (broadcastInDim S50000x256 ![0, 1] bcast_S1x256_S50000x256_0_1 (broadcastInDim S1x256 ![1] bcast_S256_S1x256_1 β)))
    (broadcastInDim S50000x256 ![] bcast_S_S50000x256 (constant S_ .f32 0x00000000#32))

/-- The second linear layer, clamped: operations %39 … %43. -/
def stLin2 (h : FVec F S50000x256 .f32) (w2 : FVec F S256x256 .f32) (b2 : FVec F S256 .f32) : FVec F S50000x256 .f32 :=
  maximumf (addf (Host.dotGeneral dot_S50000x256_S256x256_S50000x256_1_0_0_1_n_n none h w2) (broadcastInDim S50000x256 ![0, 1] bcast_S1x256_S50000x256_0_1 (broadcastInDim S1x256 ![1] bcast_S256_S1x256_1 b2)))
    (broadcastInDim S50000x256 ![] bcast_S_S50000x256 (constant S_ .f32 0x00000000#32))

/-- The last linear layer: operations %44 … %47. -/
def stOut (h : FVec F S50000x256 .f32) (wl : FVec F S256x40 .f32) (bl : FVec F S40 .f32) : FVec F S50000x40 .f32 :=
  addf (Host.dotGeneral dot_S50000x256_S256x40_S50000x40_1_0_0_1_n_n none h wl)
    (broadcastInDim S50000x40 ![0, 1] bcast_S1x40_S50000x40_0_1 (broadcastInDim S1x40 ![1] bcast_S40_S1x40_1 bl))

/-- The whole network: the result as a function of the ten arguments. -/
def stNet (x : FVec F S50000x128 .f32) (e : IVec S2x600000 32) (w1 : FVec F S128x256 .f32) (b1 γ β : FVec F S256 .f32)
    (w2 : FVec F S256x256 .f32) (b2 : FVec F S256 .f32) (wl : FVec F S256x40 .f32) (bl : FVec F S40 .f32) :
    FVec F S50000x40 .f32 :=
  stOut (stLin2 (stHid (stY x (agg x e) w1 b1) (stMean (stY x (agg x e) w1 b1)) (stVar (stY x (agg x e) w1 b1)) γ β) w2 b2) wl bl

-- eighty binds re-associated: the rewrite under the chain recurses once per statement
set_option maxRecDepth 8192 in
set_option maxHeartbeats 4000000 in
/-- @main is that straight line: the three functions' bodies unfolded at their calls and the records at their fields,
    both sides are one chain of steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

attribute [local irreducible] Host.reduceAdd Host.gather Host.scatterAdd in
set_option maxRecDepth 8192 in
set_option maxHeartbeats 4000000 in
/-- On the device, for any float values, from any memory with zero counters: every weakly fair execution of @main
    terminates with the result at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = stNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v47).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp)⟩)
    (run_seq scopedRefs_eq scopedSems_eq defs main (fun _ => ops) main_eq (fun _ => ops_sub) m ρ)

end Cert.ReferenceIdeal.RefValue

end
-- ==== Proof.RefValue.lean ====
/-
  The reference program's result, read index by index against the specification.

  Each stage of the run is read at explicit coordinates: a vector laid along every row of a matrix reads the vector at
  the column; the reduction over the node axis from a zero initial value is the sum down a column; a product of an
  [M, K] by a [K, N] matrix is the sum over k of the entries' products. The variance divides by the number of nodes less
  the converted integer zero, which is the number of nodes, and its selection on that count being positive takes the
  mean of the squared deviations. Composed, the result array is the specification's `out` of the first linear layer,
  its column means and its column variances.
-/
import proofs.«181071_j42348377538854_1_alg».proof.Proof.RefRun
import proofs.«181071_j42348377538854_1_alg».proof.Proof.Spec
import proofs.«181071_j42348377538854_1_alg».proof.Proof.Algebra
import proofs.«181071_j42348377538854_1_alg».proof.Proof.LibPlainContract
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Broadcasts read at an index -/

section Layout
variable {α : Type}

/-- A vector laid as the one row of a matrix, read at (0, t), is the vector at t. -/
theorem row_apply {n : Nat} (h : (⟨1, ![n]⟩ : Shape).BroadcastsInDim ⟨2, ![1, n]⟩ ![1]) (v : (⟨1, ![n]⟩ : Shape).Idx → α)
    (t : Fin n) : broadcastInDim ⟨2, ![1, n]⟩ ![1] h v (ix2 (0 : Fin 1) t) = v (ix1 t) := by
  refine broadcastInDim_apply ![1] h v (ix2 (0 : Fin 1) t) (ix1 t) ?_
  intro a
  fin_cases a
  show t.val = if n = 1 then 0 else t.val
  split_ifs with hn
  · have := t.isLt; omega
  · rfl

/-- A vector laid along every row of a matrix, read at (r, t), is the vector at t. -/
theorem col_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (t : Fin n) :
    broadcastInDim ⟨2, ![m, n]⟩ ![0, 1] h2 (broadcastInDim ⟨2, ![1, n]⟩ ![1] h1 v) (ix2 r t) = v (ix1 t) :=
  (broadcastInDim_oneRow_apply h2 _ r t).trans (row_apply h1 v t)

end Layout

/-! ## The stages read at an index -/

/-- The sum down a column: the reduction over the node axis from the zero initial value. -/
theorem colSum_apply (y : FVec Ideal S50000x256 .f32) (q : Fin 256) :
    Host.reduceAdd y (constant S_ .f32 0x00000000#32) reducesTo_S50000x256_S256_d0 h_S_ (ix1 q) = ∑ p : Fin 50000, y (ix2 p q) := by
  have hR : S50000x256.Reduces [0] S256 := by decide
  unfold Host.reduceAdd
  refine (Ideal.hostReduceAdd_single reducesTo_S50000x256_S256_d0 hR y _ (ix1 q)).trans ?_
  rw [constant_apply, Ideal.ofBits_zero_f32, zero_add]
  refine Finset.sum_congr rfl fun k _ => congrArg y ?_
  funext a
  apply Fin.ext
  match a with
  | ⟨0, _⟩ => rfl
  | ⟨1, _⟩ => rfl

/-- The first linear layer at (p, q). -/
theorem stY_apply (x a : FVec Ideal S50000x128 .f32) (w1 : FVec Ideal S128x256 .f32) (b1 : FVec Ideal S256 .f32)
    (p : Fin 50000) (q : Fin 256) : stY x a w1 b1 (ix2 p q) = Cert.Gin.lin1 x a w1 b1 p q := by
  unfold stY Cert.Gin.lin1
  rw [addf_apply, col_apply]
  refine congrArg (· + b1 (ix1 q)) ?_
  exact Cert.LibPlainContract.dotGeneral_plain_apply 50000 128 256 none .single (addf x a) w1 p q

/-- The column means at q. -/
theorem stMean_apply (y : FVec Ideal S50000x256 .f32) (q : Fin 256) :
    stMean y (ix1 q) = Cert.Gin.mean (fun p q => y (ix2 p q)) q := by
  unfold stMean Cert.Gin.mean Cert.Gin.nNodes
  show Ideal.div (Host.reduceAdd y _ reducesTo_S50000x256_S256_d0 h_S_ (ix1 q))
    (broadcastInDim S256 ![] bcast_S_S256 (constant (F := Ideal) S_ .f32 0x47435000#32) (ix1 q)) = _
  rw [colSum_apply, broadcastInDim_scalar_apply, constant_apply]

/-- The count the variance divides by is the number of nodes: the converted integer zero is the real zero. -/
theorem stCount_apply : stCount (F := Ideal) ix0 = Cert.Gin.nNodes := by
  unfold stCount Cert.Gin.nNodes
  show Ideal.ofBits .f32 0x47435000#32 - (((0#32 : BitVec 32).toInt : ℝ) : EReal) = _
  simp

/-- The deviation at (p, q): the entry less its column's mean. -/
theorem stDev_apply (y : FVec Ideal S50000x256 .f32) (p : Fin 50000) (q : Fin 256) :
    stDev y (ix2 p q) = y (ix2 p q) - Cert.Gin.mean (fun p q => y (ix2 p q)) q := by
  unfold stDev Cert.Gin.mean Cert.Gin.nNodes
  rw [subf_apply, broadcastInDim_oneRow_apply]
  show y (ix2 p q) - Ideal.div
      (broadcastInDim S1x256 ![1] bcast_S256_S1x256_1 (Host.reduceAdd y _ reducesTo_S50000x256_S256_d0 h_S_) (ix2 (0 : Fin 1) q))
      (broadcastInDim S1x256 ![] bcast_S_S1x256 (constant (F := Ideal) S_ .f32 0x47435000#32) (ix2 (0 : Fin 1) q)) = _
  rw [row_apply, colSum_apply, broadcastInDim_scalar_apply, constant_apply]

/-- The count is positive, so the selection takes the variance and never reads the other branch. -/
theorem count_pos : FloatOps.cmpf (F := Ideal) .ogt Cert.Gin.nNodes (Ideal.ofBits .f32 0x00000000#32) = 1#1 := by
  rw [Ideal.ofBits_zero_f32, Cert.Gin.nNodes_eq]
  show Ideal.cmp .ogt _ _ = _
  unfold Ideal.cmp
  have h : (0 : EReal) < ((50000 : ℝ) : EReal) := by exact_mod_cast (by norm_num : (0 : ℝ) < 50000)
  simp [h]

/-- The column variances at q: the mean of the squared deviations. -/
theorem stVar_apply (y : FVec Ideal S50000x256 .f32) (q : Fin 256) :
    stVar y (ix1 q) = Cert.Gin.varDev (fun p q => y (ix2 p q)) q := by
  unfold stVar Cert.Gin.varDev
  rw [select_apply, broadcastInDim_scalar_apply, cmpf_apply, stCount_apply, constant_apply, count_pos, select_one]
  show Ideal.div (Host.reduceAdd (mulf (stDev y) (stDev y)) _ reducesTo_S50000x256_S256_d0 h_S_ (ix1 q))
    (broadcastInDim S256 ![] bcast_S_S256 (stCount (F := Ideal)) (ix1 q)) = _
  rw [colSum_apply, broadcastInDim_scalar_apply, stCount_apply]
  have hs : ∀ p : Fin 50000, mulf (stDev y) (stDev y) (ix2 p q)
      = (y (ix2 p q) - Cert.Gin.mean (fun p q => y (ix2 p q)) q) * (y (ix2 p q) - Cert.Gin.mean (fun p q => y (ix2 p q)) q) :=
    fun p => by rw [mulf_apply, stDev_apply]
  exact congrArg (fun s => Ideal.div s Cert.Gin.nNodes) (Finset.sum_congr rfl fun p _ => hs p)

/-- The hidden layer at (p, k). -/
theorem stHid_apply (y : FVec Ideal S50000x256 .f32) (mu var γ β : FVec Ideal S256 .f32) (p : Fin 50000) (k : Fin 256) :
    stHid y mu var γ β (ix2 p k)
      = Cert.Gin.hidden (fun p q => y (ix2 p q)) (fun q => mu (ix1 q)) (fun q => var (ix1 q)) γ β p k := by
  unfold stHid Cert.Gin.hidden Cert.Gin.eps Cert.Gin.zero
  rw [maximumf_apply, addf_apply, mulf_apply, mulf_apply, subf_apply, col_apply, col_apply, col_apply, col_apply,
    broadcastInDim_scalar_apply, constant_apply]
  rfl

/-- The second layer at (p, j). -/
theorem stLin2_apply (h : FVec Ideal S50000x256 .f32) (w2 : FVec Ideal S256x256 .f32) (b2 : FVec Ideal S256 .f32)
    (p : Fin 50000) (j : Fin 256) : stLin2 h w2 b2 (ix2 p j) = Cert.Gin.lin2 (fun p k => h (ix2 p k)) w2 b2 p j := by
  unfold stLin2 Cert.Gin.lin2 Cert.Gin.zero
  rw [maximumf_apply, addf_apply, col_apply, broadcastInDim_scalar_apply, constant_apply]
  refine congrArg (fun t => max (t + b2 (ix1 j)) _) ?_
  exact Cert.LibPlainContract.dotGeneral_plain_apply 50000 256 256 none .single h w2 p j

/-- The last layer at (p, j). -/
theorem stOut_apply (h : FVec Ideal S50000x256 .f32) (wl : FVec Ideal S256x40 .f32) (bl : FVec Ideal S40 .f32)
    (p : Fin 50000) (j : Fin 40) : stOut h wl bl (ix2 p j) = Cert.Gin.lin3 (fun p k => h (ix2 p k)) wl bl p j := by
  unfold stOut Cert.Gin.lin3
  rw [addf_apply, col_apply]
  refine congrArg (· + bl (ix1 j)) ?_
  exact Cert.LibPlainContract.dotGeneral_plain_apply 50000 256 40 none .single h wl p j

/-- The network after the first layer is the specification's function of the first layer's output, its column means and
    its column variances as the mean of the squared deviations. -/
theorem tail_eq (y : FVec Ideal S50000x256 .f32) (γ β : FVec Ideal S256 .f32) (w2 : FVec Ideal S256x256 .f32)
    (b2 : FVec Ideal S256 .f32) (wl : FVec Ideal S256x40 .f32) (bl : FVec Ideal S40 .f32) :
    stOut (stLin2 (stHid y (stMean y) (stVar y) γ β) w2 b2) wl bl
      = Cert.Gin.out (fun p q => y (ix2 p q)) (Cert.Gin.mean (fun p q => y (ix2 p q)))
          (Cert.Gin.varDev (fun p q => y (ix2 p q))) γ β w2 b2 wl bl := by
  have hM : (fun q => stMean y (ix1 q)) = Cert.Gin.mean (fun p q => y (ix2 p q)) := funext (stMean_apply y)
  have hV : (fun q => stVar y (ix1 q)) = Cert.Gin.varDev (fun p q => y (ix2 p q)) := funext (stVar_apply y)
  have hH : (fun p k => stHid y (stMean y) (stVar y) γ β (ix2 p k))
      = Cert.Gin.hidden (fun p q => y (ix2 p q)) (Cert.Gin.mean (fun p q => y (ix2 p q)))
          (Cert.Gin.varDev (fun p q => y (ix2 p q))) γ β := by
    funext p k
    rw [stHid_apply, hM, hV]
  have hL : (fun p k => stLin2 (stHid y (stMean y) (stVar y) γ β) w2 b2 (ix2 p k))
      = Cert.Gin.lin2 (Cert.Gin.hidden (fun p q => y (ix2 p q)) (Cert.Gin.mean (fun p q => y (ix2 p q)))
          (Cert.Gin.varDev (fun p q => y (ix2 p q))) γ β) w2 b2 := by
    funext p k
    rw [stLin2_apply, hH]
  funext i
  obtain ⟨p, j, rfl⟩ : ∃ (p : Fin 50000) (j : Fin 40), i = ix2 p j := ⟨i 0, i 1, eq_ix2 i⟩
  rw [Cert.Gin.out_apply, stOut_apply, hL]

/-- The whole network is the specification's, of the first layer's output. -/
theorem stNet_eq (x : FVec Ideal S50000x128 .f32) (e : IVec S2x600000 32) (w1 : FVec Ideal S128x256 .f32)
    (b1 γ β : FVec Ideal S256 .f32) (w2 : FVec Ideal S256x256 .f32) (b2 : FVec Ideal S256 .f32)
    (wl : FVec Ideal S256x40 .f32) (bl : FVec Ideal S40 .f32) :
    stNet x e w1 b1 γ β w2 b2 wl bl
      = Cert.Gin.out (Cert.Gin.lin1 x (agg x e) w1 b1) (Cert.Gin.mean (Cert.Gin.lin1 x (agg x e) w1 b1))
          (Cert.Gin.varDev (Cert.Gin.lin1 x (agg x e) w1 b1)) γ β w2 b2 wl bl := by
  have hY : (fun p q => stY x (agg x e) w1 b1 (ix2 p q)) = Cert.Gin.lin1 x (agg x e) w1 b1 :=
    funext fun p => funext fun q => stY_apply x (agg x e) w1 b1 p q
  unfold stNet
  rw [tail_eq, hY]

/-! ## The run, at the specification -/

/-- From any memory with zero counters every weakly fair execution of @main at the exact values terminates with the
    result buffer at the specification's network of the first linear layer of the arguments, its column means and its
    column variances as the mean of the squared deviations, and the ten arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
          = Cert.Gin.out (Cert.Gin.lin1 (m ((c.tc : Thread nD τ).loc main_arg0)) (agg (F := Ideal) (m ((c.tc : Thread nD τ).loc main_arg0)) (m ((c.tc : Thread nD τ).loc main_arg1))) (m ((c.tc : Thread nD τ).loc main_arg2)) (m ((c.tc : Thread nD τ).loc main_arg3)))
              (Cert.Gin.mean (Cert.Gin.lin1 (m ((c.tc : Thread nD τ).loc main_arg0)) (agg (F := Ideal) (m ((c.tc : Thread nD τ).loc main_arg0)) (m ((c.tc : Thread nD τ).loc main_arg1))) (m ((c.tc : Thread nD τ).loc main_arg2)) (m ((c.tc : Thread nD τ).loc main_arg3))))
              (Cert.Gin.varDev (Cert.Gin.lin1 (m ((c.tc : Thread nD τ).loc main_arg0)) (agg (F := Ideal) (m ((c.tc : Thread nD τ).loc main_arg0)) (m ((c.tc : Thread nD τ).loc main_arg1))) (m ((c.tc : Thread nD τ).loc main_arg2)) (m ((c.tc : Thread nD τ).loc main_arg3))))
              (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun _ h c => ⟨(h c).1.trans (stNet_eq _ _ _ _ _ _ _ _ _ _), (h c).2⟩) (run (F := Ideal) m ρ)

end Cert.ReferenceIdeal.RefValue

end
-- ==== Proof.Finite.lean ====
/-
  From the precondition to real entries.

  The precondition is the conjunction, array by array, of "every entry's absolute value is below plus infinity". Read at
  the extended reals, an entry x with max x (-x) < ⊤ is neither infinity: for x = ⊤ the maximum is ⊤, and for x = ⊥ it is
  -⊥ = ⊤ again. So each array the conjunction mentions has only real entries; the three the first linear layer reads
  are stated below.
-/
import proofs.«181071_j42348377538854_1_alg».proof.Pre_finite_inputs
import proofs.«181071_j42348377538854_1_alg».proof.Proof.Gen.Pre_finite_inputs
import proofs.«181071_j42348377538854_1_alg».proof.Proof.LibSoftmaxUnit
import Idealize.ShloMosaic.Lib.ReduceAll
import Idealize.ShloMosaic.Lib.ValueIdx

noncomputable section

namespace Cert.Gin

open Idealize.ShloMosaic Idealize.ShloMosaic.ValueIdx
open Idealize.ShloMosaic.SoftmaxUnit (IsReal)
open Cert.Pre_finite_inputs (S50000x128 S2x600000 S128x256 S256 S256x256 S256x40 S40 S_)

/-- The rank-0 shape has one index. -/
instance subsingleton_scalar_idx : Subsingleton S_.Idx := ⟨fun a b => funext fun d => d.elim0⟩

/-- The pattern 0x7F800000 (sign 0, exponent all ones, fraction 0) denotes plus infinity. -/
theorem ofBits_inf : Ideal.ofBits .f32 0x7F800000#32 = (⊤ : EReal) := by
  simp [Ideal.ofBits, Ideal.ieee]

/-- An extended real whose absolute value max x (-x) compares below plus infinity is a real number. -/
theorem isReal_of_abs_lt_inf (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact ⟨r, rfl⟩
  | top => simp at h

/-- One conjunct read back: if the all-axes "and" of the comparisons |a| < +inf came out 1, every entry of a is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) :
    ∀ i, IsReal (a i) := fun i =>
  isReal_of_abs_lt_inf (a i) (Host.reduce_andi_all _ _ hr hu ix0 e i)

/-- THE PRECONDITION GIVES REAL ENTRIES for the node features, the first weight matrix and the first bias. -/
theorem real_of_pre (a0 : FVec Ideal S50000x128 .f32) (a1 : IVec S2x600000 32) (a2 : FVec Ideal S128x256 .f32)
    (a3 a4 a5 : FVec Ideal S256 .f32) (a6 : FVec Ideal S256x256 .f32) (a7 : FVec Ideal S256 .f32)
    (a8 : FVec Ideal S256x40 .f32) (a9 : FVec Ideal S40 .f32)
    (h : Cert.Pre_finite_inputs.fn (F := Ideal) a0 a1 a2 a3 a4 a5 a6 a7 a8 a9 = (fun _ => 1#1)) :
    (∀ i, IsReal (a0 i)) ∧ (∀ i, IsReal (a2 i)) ∧ (∀ i, IsReal (a3 i)) := by
  have h0 := congrFun h ix0
  unfold Cert.Pre_finite_inputs.fn Cert.Pre_finite_inputs.fn_part1 Cert.Pre_finite_inputs.fn_part2 at h0
  dsimp only at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, hb⟩ := IntOp.andi_eq_one.1 h6
  obtain ⟨hx, hW⟩ := IntOp.andi_eq_one.1 h7
  exact ⟨real_of_all a0 _ _ _ hx, real_of_all a2 _ _ _ hW, real_of_all a3 _ _ _ hb⟩

end Cert.Gin

end
-- ==== Proof.lean ====
/-
  A graph layer: neighbour sums, a linear layer, batch normalisation, and two more linear layers with clamps at zero.

  The kernel program computes the neighbour sums on the host, then runs two kernels over 25 blocks of 2000 nodes: the
  first stores the linear layer's output Y and accumulates each column's sum and sum of squares; the host turns these
  into the column means mu and the variances "mean of the squares minus mu squared"; the second kernel normalises Y with
  them and applies the rest of the network. The reference computes Y in one piece, the same means, and the variances as
  the means of the squared deviations from mu.

  At the exact extended reals both results are the same function `out` of Y, mu and a variance (Proof/Spec.lean), and
  the two variances agree because every entry of Y is a real number: the inputs are finite by the precondition, the
  neighbour sums are finite sums of entries of x, and for real numbers
      (sum of y^2)/N - ((sum of y)/N)^2 = (sum of (y - (sum of y)/N)^2)/N.
  (With an infinite entry the two sides differ, so the precondition is used.) The sums the first kernel accumulates
  block by block are the sums over all nodes, by regrouping alone.

  The three frames: the two kernel programs' are the generated ones; the reference's is its run with the result dropped.
  The idealization rewrote nothing, so `preserves` is trivial.
-/
import proofs.«181071_j42348377538854_1_alg».proof.Defs
import proofs.«181071_j42348377538854_1_alg».proof.Proof.Gen.Kernel
import proofs.«181071_j42348377538854_1_alg».proof.Proof.Gen.Kernel.Frame
import proofs.«181071_j42348377538854_1_alg».proof.Proof.Gen.KernelIdeal
import proofs.«181071_j42348377538854_1_alg».proof.Proof.Gen.KernelIdeal.Frame
import proofs.«181071_j42348377538854_1_alg».proof.Proof.Gen.ReferenceIdeal
import proofs.«181071_j42348377538854_1_alg».proof.Proof.Gen.Pre_finite_inputs
import proofs.«181071_j42348377538854_1_alg».proof.Proof.KValue
import proofs.«181071_j42348377538854_1_alg».proof.Proof.RefValue
import proofs.«181071_j42348377538854_1_alg».proof.Proof.Algebra
import proofs.«181071_j42348377538854_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run_out m ρ)

theorem preserves : Cert.preserves_Kernel_KernelIdeal := trivial

/-- The neighbour sums: the two programs apply the same host operations to the same arguments. -/
theorem agg_same (x : FVec Ideal Cert.KernelIdeal.S50000x128 .f32) (e : IVec Cert.KernelIdeal.S2x600000 32) :
    Cert.ReferenceIdeal.RefValue.agg x e = Cert.KernelIdeal.KValue.agg x e := rfl

theorem algebraic : Cert.algebraic_KernelIdeal_ReferenceIdeal := by
  intro m ρ m' ρ' hpre hagree
  refine ⟨fun c => Cert.KernelIdeal.KValue.kout m c, Cert.KernelIdeal.KValue.run m ρ, ?_⟩
  refine (θ_run Cert.ReferenceIdeal.defs _ _).mono (fun r h c => ⟨(h c).1.trans ?_, (h c).2⟩)
    (Cert.ReferenceIdeal.RefValue.run_out m' ρ')
  obtain ⟨e0, e1, e2, e3, e4, e5, e6, e7, e8, e9⟩ := hagree c
  rw [e0, e1, e2, e3, e4, e5, e6, e7, e8, e9, agg_same]
  obtain ⟨hx, hW, hb⟩ := Cert.Gin.real_of_pre _ _ _ _ _ _ _ _ _ _ (hpre c)
  show _ = Cert.KernelIdeal.KValue.kout m c
  unfold Cert.KernelIdeal.KValue.kout
  rw [Cert.Gin.varSq_eq_varDev (Cert.KernelIdeal.KValue.Ym m c)
    (Cert.Gin.lin1_real _ _ _ _ hx (Cert.KernelIdeal.KValue.agg_real _ _ hx) hW hb)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
